-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S8000x128 : Shape := ⟨2, ![8000, 128]⟩
abbrev S128x128 : Shape := ⟨2, ![128, 128]⟩
abbrev S128 : Shape := ⟨1, ![128]⟩
abbrev S256x5 : Shape := ⟨2, ![256, 5]⟩
abbrev S5 : Shape := ⟨1, ![5]⟩
abbrev S1000000 : Shape := ⟨1, ![1000000]⟩
abbrev S500000 : Shape := ⟨1, ![500000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S8000x128 : S_.BroadcastsInDim S8000x128 (![] : Fin 0 → Fin S8000x128.rank)
  reducesTo_S8000x128_S_d0_1 : S8000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S128x128 .f32) (main_arg8 : FVec F S256x5 .f32) (main_arg9 : FVec F S5 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S256x5 .f32 := Host.absf main_arg8
  let main_cst_14 : FVec F S_ .f32 := constant S_ .f32 0x7F800000#32
  let main_v40 : FVec F S256x5 .f32 := broadcastInDim S256x5 ![] bcast_S_S256x5 main_cst_14
  let main_v41 : IVec S256x5 1 := cmpf .olt main_v39 main_v40
  let main_c_15 : IVec S_ 1 := constantI S_ 1 1#1
  let main_v42 : IVec S_ 1 := (fun x v => Host.reduce IntOp.andi x v reducesTo_S256x5_S_d0_1 h_S_) main_v41 main_c_15
  let main_v43 : IVec S_ 1 := andi main_v38 main_v42
  let main_v44 : FVec F S5 .f32 := Host.absf main_arg9
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  main_v48

def fn_part1 {F : FTy → Type} [FloatOps F] (main_arg4 : FVec F S128x128 .f32) (main_arg5 : FVec F S128x128 .f32) (main_arg6 : FVec F S128 .f32) (main_arg7 : FVec F S128x128 .f32) (main_arg8 : FVec F S256x5 .f32) (main_arg9 : FVec F S5 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S20000x128 .f32) (main_arg1 : FVec F S8000x128 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S256x5 .f32) (main_arg9 : FVec F S5 .f32) (main_arg10 : IVec S1000000 32) (main_arg11 : IVec S1000000 32) (main_arg12 : IVec S500000 32) (main_arg13 : IVec S500000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S8000x128 .f32 := Host.absf main_arg1
  let main_cst_0 : FVec F S_ .f32 := constant S_ .f32 0x7F800000#32
  let main_v5 : FVec F S8000x128 .f32 := broadcastInDim S8000x128 ![] bcast_S_S8000x128 main_cst_0
  let main_v6 : IVec S8000x128 1 := cmpf .olt main_v4 main_v5
  let main_c_1 : IVec S_ 1 := constantI S_ 1 1#1
  let main_v7 : IVec S_ 1 := (fun x v => Host.reduce IntOp.andi x v reducesTo_S8000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S20000x128 : Shape := ⟨2, ![20000, 128]⟩
abbrev S8000x128 : Shape := ⟨2, ![8000, 128]⟩
abbrev S128x128 : Shape := ⟨2, ![128, 128]⟩
abbrev S128 : Shape := ⟨1, ![128]⟩
abbrev S256x5 : Shape := ⟨2, ![256, 5]⟩
abbrev S5 : Shape := ⟨1, ![5]⟩
abbrev S1000000 : Shape := ⟨1, ![1000000]⟩
abbrev S500000 : Shape := ⟨1, ![500000]⟩
abbrev S_ : Shape := ⟨0, ![]⟩
abbrev S1000000x1 : Shape := ⟨2, ![1000000, 1]⟩
abbrev S1000000x128 : Shape := ⟨2, ![1000000, 128]⟩
abbrev S8000 : Shape := ⟨1, ![8000]⟩
abbrev S8000x1 : Shape := ⟨2, ![8000, 1]⟩
abbrev S20000 : Shape := ⟨1, ![20000]⟩
abbrev S20000x1 : Shape := ⟨2, ![20000, 1]⟩
abbrev S128x5 : Shape := ⟨2, ![128, 5]⟩
abbrev S1x128 : Shape := ⟨2, ![1, 128]⟩
abbrev S8000x5 : Shape := ⟨2, ![8000, 5]⟩
abbrev S4000x128 : Shape := ⟨2, ![4000, 128]⟩
abbrev S4000x5 : Shape := ⟨2, ![4000, 5]⟩
abbrev S20000x5 : Shape := ⟨2, ![20000, 5]⟩
abbrev S500000x1 : Shape := ⟨2, ![500000, 1]⟩
abbrev S500000x5 : Shape := ⟨2, ![500000, 5]⟩
abbrev S1x5 : Shape := ⟨2, ![1, 5]⟩

abbrev nBuf : Space → Nat
  | .hbm => 92
  | .vmem => 20
  | .smem => 0
  | _ => 0

abbrev bufTy : (tb : Table) → Fin (tcTables nBuf tb) → BufTy
  | .hbm, ⟨0, _⟩ => ⟨S20000x128, .f32⟩
  | .hbm, ⟨1, _⟩ => ⟨S8000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x5, .f32⟩
  | .hbm, ⟨9, _⟩ => ⟨S5, .f32⟩
  | .hbm, ⟨10, _⟩ => ⟨S1000000, .i32⟩
  | .hbm, ⟨11, _⟩ => ⟨S1000000, .i32⟩
  | .hbm, ⟨12, _⟩ => ⟨S500000, .i32⟩
  | .hbm, ⟨13, _⟩ => ⟨S500000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S_, .f32⟩
  | .hbm, ⟨24, _⟩ => ⟨S8000x128, .f32⟩
  | .hbm, ⟨25, _⟩ => ⟨S1000000x1, .i32⟩
  | .hbm, ⟨26, _⟩ => ⟨S8000x128, .f32⟩
  | .hbm, ⟨27, _⟩ => ⟨S_, .f32⟩
  | .hbm, ⟨28, _⟩ => ⟨S1000000, .f32⟩
  | .hbm, ⟨29, _⟩ => ⟨S_, .f32⟩
  | .hbm, ⟨30, _⟩ => ⟨S8000, .f32⟩
  | .hbm, ⟨31, _⟩ => ⟨S1000000x1, .i32⟩
  | .hbm, ⟨32, _⟩ => ⟨S8000, .f32⟩
  | .hbm, ⟨33, _⟩ => ⟨S_, .f32⟩
  | .hbm, ⟨34, _⟩ => ⟨S8000, .f32⟩
  | .hbm, ⟨35, _⟩ => ⟨S8000, .f32⟩
  | .hbm, ⟨36, _⟩ => ⟨S8000x1, .f32⟩
  | .hbm, ⟨37, _⟩ => ⟨S8000x128, .f32⟩
  | .hbm, ⟨38, _⟩ => ⟨S8000x128, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x128, .f32⟩
  | .hbm, ⟨48, _⟩ => ⟨S_, .f32⟩
  | .hbm, ⟨49, _⟩ => ⟨S20000x128, .f32⟩
  | .hbm, ⟨50, _⟩ => ⟨S1000000x1, .i32⟩
  | .hbm, ⟨51, _⟩ => ⟨S20000x128, .f32⟩
  | .hbm, ⟨52, _⟩ => ⟨S_, .f32⟩
  | .hbm, ⟨53, _⟩ => ⟨S1000000, .f32⟩
  | .hbm, ⟨54, _⟩ => ⟨S_, .f32⟩
  | .hbm, ⟨55, _⟩ => ⟨S20000, .f32⟩
  | .hbm, ⟨56, _⟩ => ⟨S1000000x1, .i32⟩
  | .hbm, ⟨57, _⟩ => ⟨S20000, .f32⟩
  | .hbm, ⟨58, _⟩ => ⟨S_, .f32⟩
  | .hbm, ⟨59, _⟩ => ⟨S20000, .f32⟩
  | .hbm, ⟨60, _⟩ => ⟨S20000, .f32⟩
  | .hbm, ⟨61, _⟩ => ⟨S20000x1, .f32⟩
  | .hbm, ⟨62, _⟩ => ⟨S20000x128, .f32⟩
  | .hbm, ⟨63, _⟩ => ⟨S20000x128, .f32⟩
  | .hbm, ⟨64, _⟩ => ⟨S128x5, .f32⟩
  | .hbm, ⟨65, _⟩ => ⟨S128x5, .f32⟩
  | .hbm, ⟨66, _⟩ => ⟨S1x128, .f32⟩
  | .hbm, ⟨67, _⟩ => ⟨S8000x5, .f32⟩
  | .hbm, ⟨68, _⟩ => ⟨S1x128, .f32⟩
  | .hbm, ⟨69, _⟩ => ⟨S20000x5, .f32⟩
  | .hbm, ⟨70, _⟩ => ⟨S_, .i32⟩
  | .hbm, ⟨71, _⟩ => ⟨S500000, .i32⟩
  | .hbm, ⟨72, _⟩ => ⟨S500000, .i1⟩
  | .hbm, ⟨73, _⟩ => ⟨S_, .i32⟩
  | .hbm, ⟨74, _⟩ => ⟨S500000, .i32⟩
  | .hbm, ⟨75, _⟩ => ⟨S500000, .i32⟩
  | .hbm, ⟨76, _⟩ => ⟨S500000, .i32⟩
  | .hbm, ⟨77, _⟩ => ⟨S500000x1, .i32⟩
  | .hbm, ⟨78, _⟩ => ⟨S500000x5, .f32⟩
  | .hbm, ⟨79, _⟩ => ⟨S_, .i32⟩
  | .hbm, ⟨80, _⟩ => ⟨S500000, .i32⟩
  | .hbm, ⟨81, _⟩ => ⟨S500000, .i1⟩
  | .hbm, ⟨82, _⟩ => ⟨S_, .i32⟩
  | .hbm, ⟨83, _⟩ => ⟨S500000, .i32⟩
  | .hbm, ⟨84, _⟩ => ⟨S500000, .i32⟩
  | .hbm, ⟨85, _⟩ => ⟨S500000, .i32⟩
  | .hbm, ⟨86, _⟩ => ⟨S500000x1, .i32⟩
  | .hbm, ⟨87, _⟩ => ⟨S500000x5, .f32⟩
  | .hbm, ⟨88, _⟩ => ⟨S500000x5, .f32⟩
  | .hbm, ⟨89, _⟩ => ⟨S1x5, .f32⟩
  | .hbm, ⟨90, _⟩ => ⟨S500000x5, .f32⟩
  | .hbm, ⟨91, _⟩ => ⟨S500000x5, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x5, .f32⟩
  | .local _ .vmem, ⟨8, _⟩ => ⟨S4000x5, .f32⟩
  | .local _ .vmem, ⟨9, _⟩ => ⟨S4000x5, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S128x5, .f32⟩
  | .local _ .vmem, ⟨18, _⟩ => ⟨S4000x5, .f32⟩
  | .local _ .vmem, ⟨19, _⟩ => ⟨S4000x5, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_cst_8 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_12 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x5 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S8000x128 : S_.BroadcastsInDim S8000x128 (![] : Fin 0 → Fin S8000x128.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x128_0_1 : S8000x1.BroadcastsInDim S8000x128 (![0, 1] : Fin 2 → Fin S8000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  slices_S256x5_S128x5_0_0 : S256x5.Slices ![0, 0] S128x5
  slices_S256x5_S128x5_128_0 : S256x5.Slices ![128, 0] S128x5
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x5_S128x5_0_0 : ∀ a, (![0, 0] : Fin 2 → Nat) a + S128x5.size a ≤ S128x5.size a
  h_S128x5 : 0 < S128x5.numel
  shapeCasts_S128x5_S128x5 : S128x5.ShapeCasts S128x5
  inb_S4000x5_S4000x5_0_0 : ∀ a, (![0, 0] : Fin 2 → Nat) a + S4000x5.size a ≤ S4000x5.size a
  h_S4000x5 : 0 < S4000x5.numel
  bcast_S_S500000 : S_.BroadcastsInDim S500000 (![] : Fin 0 → Fin S500000.rank)
  bcast_S500000_S500000x1_0 : S500000.BroadcastsInDim S500000x1 (![0] : Fin 1 → Fin S500000x1.rank)
  bcast_S5_S1x5_1 : S5.BroadcastsInDim S1x5 (![1] : Fin 1 → Fin S1x5.rank)
  bcast_S1x5_S500000x5_0_1 : S1x5.BroadcastsInDim S500000x5 (![0, 1] : Fin 2 → Fin S500000x5.rank)
  gather_S20000x128_S1000000x1_S1000000x128_1_0_n_n_0_1_1128_wf : GatherDims.WF S20000x128 S1000000x1 S1000000x128 [1] [0] [] [0] [] 1 ![1, 128]
  scatter_S8000x128_S1000000x1_S1000000x128_1_0_0_1_wf : ScatterDims.WF S8000x128 S1000000x1 S1000000x128 [1] [0] [0] 1
  scatter_S8000_S1000000x1_S1000000_n_0_0_1_wf : ScatterDims.WF S8000 S1000000x1 S1000000 [] [0] [0] 1
  gather_S8000x128_S1000000x1_S1000000x128_1_0_n_n_0_1_1128_wf : GatherDims.WF S8000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  dot_S4000x128_S128x128_S4000x128_1_0_0_1_n_n_wf : DotDims.WF S4000x128 S128x128 S4000x128 [1] [0] [0] [1] [] []
  dot_S4000x128_S128x5_S4000x5_1_0_0_1_n_n_wf : DotDims.WF S4000x128 S128x5 S4000x5 [1] [0] [0] [1] [] []
  gather_S20000x5_S500000x1_S500000x5_1_0_n_n_0_1_15_wf : GatherDims.WF S20000x5 S500000x1 S500000x5 [1] [0] [] [0] [] 1 ![1, 5]
  gather_S8000x5_S500000x1_S500000x5_1_0_n_n_0_1_15_wf : GatherDims.WF S8000x5 S500000x1 S500000x5 [1] [0] [] [0] [] 1 ![1, 5]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S8000x128.size a
  hwx0_0 : ∀ i : grid0.Coords, EltTy.bits .f32 = 32 ∨ (Rect.block (s := S8000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S8000x128.size a
  hwx0_1 : ∀ i : grid0.Coords, EltTy.bits .f32 = 32 ∨ (Rect.block (s := S8000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x5.size a ≤ S128x5.size a
  hwx0_5 : ∀ i : grid0.Coords, EltTy.bits .f32 = 32 ∨ (Rect.block (s := S128x5) S128x5.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x5.size a ≤ S8000x5.size a
  hwx0_6 : ∀ i : grid0.Coords, EltTy.bits .f32 = 32 ∨ (Rect.block (s := S8000x5) S4000x5.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x5.size a ≤ S128x5.size a
  hwx1_5 : ∀ i : grid1.Coords, EltTy.bits .f32 = 32 ∨ (Rect.block (s := S128x5) S128x5.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x5.size a ≤ S20000x5.size a
  hwx1_6 : ∀ i : grid1.Coords, EltTy.bits .f32 = 32 ∨ (Rect.block (s := S20000x5) S4000x5.size (cc1_transform_6 i) (hinb1_6 i)).WholeWords (EltTy.packing .f32)

variable [Facts₀]

def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S8000x128_S1000000x1_S1000000x128_1_0_0_1 : ScatterDims S8000x128 S1000000x1 S1000000x128 where
  updateWindowDims := [1]
  insertedWindowDims := [0]
  scatterDimsToOperandDims := [0]
  indexVectorDim := 1
  wf := scatter_S8000x128_S1000000x1_S1000000x128_1_0_0_1_wf
def scatter_S8000_S1000000x1_S1000000_n_0_0_1 : ScatterDims S8000 S1000000x1 S1000000 where
  updateWindowDims := []
  insertedWindowDims := [0]
  scatterDimsToOperandDims := [0]
  indexVectorDim := 1
  wf := scatter_S8000_S1000000x1_S1000000_n_0_0_1_wf
def gather_S8000x128_S1000000x1_S1000000x128_1_0_n_n_0_1_1128 : GatherDims S8000x128 S1000000x1 S1000000x128 where
  offsetDims := [1]
  collapsedSliceDims := [0]
  operandBatchingDims := []
  startIndicesBatchingDims := []
  startIndexMap := [0]
  indexVectorDim := 1
  sliceSizes := ![1, 128]
  wf := gather_S8000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x5_S4000x5_1_0_0_1_n_n : DotDims S4000x128 S128x5 S4000x5 where
  lhsContracting := [1]
  rhsContracting := [0]
  lhsNonContracting := [0]
  rhsNonContracting := [1]
  lhsBatch := []
  rhsBatch := []
  wf := dot_S4000x128_S128x5_S4000x5_1_0_0_1_n_n_wf
def gather_S20000x5_S500000x1_S500000x5_1_0_n_n_0_1_15 : GatherDims S20000x5 S500000x1 S500000x5 where
  offsetDims := [1]
  collapsedSliceDims := [0]
  operandBatchingDims := []
  startIndicesBatchingDims := []
  startIndexMap := [0]
  indexVectorDim := 1
  sliceSizes := ![1, 5]
  wf := gather_S20000x5_S500000x1_S500000x5_1_0_n_n_0_1_15_wf
def gather_S8000x5_S500000x1_S500000x5_1_0_n_n_0_1_15 : GatherDims S8000x5 S500000x1 S500000x5 where
  offsetDims := [1]
  collapsedSliceDims := [0]
  operandBatchingDims := []
  startIndicesBatchingDims := []
  startIndexMap := [0]
  indexVectorDim := 1
  sliceSizes := ![1, 5]
  wf := gather_S8000x5_S500000x1_S500000x5_1_0_n_n_0_1_15_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S128x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S4000x5.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S128x5.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S4000x5.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S20000x128 : Shape := ⟨2, ![20000, 128]⟩
abbrev S8000x128 : Shape := ⟨2, ![8000, 128]⟩
abbrev S128x128 : Shape := ⟨2, ![128, 128]⟩
abbrev S128 : Shape := ⟨1, ![128]⟩
abbrev S256x5 : Shape := ⟨2, ![256, 5]⟩
abbrev S5 : Shape := ⟨1, ![5]⟩
abbrev S1000000 : Shape := ⟨1, ![1000000]⟩
abbrev S500000 : Shape := ⟨1, ![500000]⟩
abbrev S_ : Shape := ⟨0, ![]⟩
abbrev S1000000x1 : Shape := ⟨2, ![1000000, 1]⟩
abbrev S1000000x128 : Shape := ⟨2, ![1000000, 128]⟩
abbrev S8000 : Shape := ⟨1, ![8000]⟩
abbrev S8000x1 : Shape := ⟨2, ![8000, 1]⟩
abbrev S1x128 : Shape := ⟨2, ![1, 128]⟩
abbrev S20000 : Shape := ⟨1, ![20000]⟩
abbrev S20000x1 : Shape := ⟨2, ![20000, 1]⟩
abbrev S500000x1 : Shape := ⟨2, ![500000, 1]⟩
abbrev S500000x128 : Shape := ⟨2, ![500000, 128]⟩
abbrev S500000x256 : Shape := ⟨2, ![500000, 256]⟩
abbrev S500000x5 : Shape := ⟨2, ![500000, 5]⟩
abbrev S1x5 : Shape := ⟨2, ![1, 5]⟩

abbrev nBuf : Space → Nat
  | .hbm => 99
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S8000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x5, .f32⟩
  | .hbm, ⟨9, _⟩ => ⟨S5, .f32⟩
  | .hbm, ⟨10, _⟩ => ⟨S1000000, .i32⟩
  | .hbm, ⟨11, _⟩ => ⟨S1000000, .i32⟩
  | .hbm, ⟨12, _⟩ => ⟨S500000, .i32⟩
  | .hbm, ⟨13, _⟩ => ⟨S500000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S_, .f32⟩
  | .hbm, ⟨24, _⟩ => ⟨S8000x128, .f32⟩
  | .hbm, ⟨25, _⟩ => ⟨S1000000x1, .i32⟩
  | .hbm, ⟨26, _⟩ => ⟨S8000x128, .f32⟩
  | .hbm, ⟨27, _⟩ => ⟨S_, .f32⟩
  | .hbm, ⟨28, _⟩ => ⟨S1000000, .f32⟩
  | .hbm, ⟨29, _⟩ => ⟨S_, .f32⟩
  | .hbm, ⟨30, _⟩ => ⟨S8000, .f32⟩
  | .hbm, ⟨31, _⟩ => ⟨S1000000x1, .i32⟩
  | .hbm, ⟨32, _⟩ => ⟨S8000, .f32⟩
  | .hbm, ⟨33, _⟩ => ⟨S_, .f32⟩
  | .hbm, ⟨34, _⟩ => ⟨S8000, .f32⟩
  | .hbm, ⟨35, _⟩ => ⟨S8000, .f32⟩
  | .hbm, ⟨36, _⟩ => ⟨S8000x1, .f32⟩
  | .hbm, ⟨37, _⟩ => ⟨S8000x128, .f32⟩
  | .hbm, ⟨38, _⟩ => ⟨S8000x128, .f32⟩
  | .hbm, ⟨39, _⟩ => ⟨S8000x128, .f32⟩
  | .hbm, ⟨40, _⟩ => ⟨S1x128, .f32⟩
  | .hbm, ⟨41, _⟩ => ⟨S8000x128, .f32⟩
  | .hbm, ⟨42, _⟩ => ⟨S8000x128, .f32⟩
  | .hbm, ⟨43, _⟩ => ⟨S8000x128, .f32⟩
  | .hbm, ⟨44, _⟩ => ⟨S8000x128, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x128, .f32⟩
  | .hbm, ⟨54, _⟩ => ⟨S_, .f32⟩
  | .hbm, ⟨55, _⟩ => ⟨S20000x128, .f32⟩
  | .hbm, ⟨56, _⟩ => ⟨S1000000x1, .i32⟩
  | .hbm, ⟨57, _⟩ => ⟨S20000x128, .f32⟩
  | .hbm, ⟨58, _⟩ => ⟨S_, .f32⟩
  | .hbm, ⟨59, _⟩ => ⟨S1000000, .f32⟩
  | .hbm, ⟨60, _⟩ => ⟨S_, .f32⟩
  | .hbm, ⟨61, _⟩ => ⟨S20000, .f32⟩
  | .hbm, ⟨62, _⟩ => ⟨S1000000x1, .i32⟩
  | .hbm, ⟨63, _⟩ => ⟨S20000, .f32⟩
  | .hbm, ⟨64, _⟩ => ⟨S_, .f32⟩
  | .hbm, ⟨65, _⟩ => ⟨S20000, .f32⟩
  | .hbm, ⟨66, _⟩ => ⟨S20000, .f32⟩
  | .hbm, ⟨67, _⟩ => ⟨S20000x1, .f32⟩
  | .hbm, ⟨68, _⟩ => ⟨S20000x128, .f32⟩
  | .hbm, ⟨69, _⟩ => ⟨S20000x128, .f32⟩
  | .hbm, ⟨70, _⟩ => ⟨S20000x128, .f32⟩
  | .hbm, ⟨71, _⟩ => ⟨S1x128, .f32⟩
  | .hbm, ⟨72, _⟩ => ⟨S20000x128, .f32⟩
  | .hbm, ⟨73, _⟩ => ⟨S20000x128, .f32⟩
  | .hbm, ⟨74, _⟩ => ⟨S20000x128, .f32⟩
  | .hbm, ⟨75, _⟩ => ⟨S20000x128, .f32⟩
  | .hbm, ⟨76, _⟩ => ⟨S_, .i32⟩
  | .hbm, ⟨77, _⟩ => ⟨S500000, .i32⟩
  | .hbm, ⟨78, _⟩ => ⟨S500000, .i1⟩
  | .hbm, ⟨79, _⟩ => ⟨S_, .i32⟩
  | .hbm, ⟨80, _⟩ => ⟨S500000, .i32⟩
  | .hbm, ⟨81, _⟩ => ⟨S500000, .i32⟩
  | .hbm, ⟨82, _⟩ => ⟨S500000, .i32⟩
  | .hbm, ⟨83, _⟩ => ⟨S500000x1, .i32⟩
  | .hbm, ⟨84, _⟩ => ⟨S500000x128, .f32⟩
  | .hbm, ⟨85, _⟩ => ⟨S_, .i32⟩
  | .hbm, ⟨86, _⟩ => ⟨S500000, .i32⟩
  | .hbm, ⟨87, _⟩ => ⟨S500000, .i1⟩
  | .hbm, ⟨88, _⟩ => ⟨S_, .i32⟩
  | .hbm, ⟨89, _⟩ => ⟨S500000, .i32⟩
  | .hbm, ⟨90, _⟩ => ⟨S500000, .i32⟩
  | .hbm, ⟨91, _⟩ => ⟨S500000, .i32⟩
  | .hbm, ⟨92, _⟩ => ⟨S500000x1, .i32⟩
  | .hbm, ⟨93, _⟩ => ⟨S500000x128, .f32⟩
  | .hbm, ⟨94, _⟩ => ⟨S500000x256, .f32⟩
  | .hbm, ⟨95, _⟩ => ⟨S500000x5, .f32⟩
  | .hbm, ⟨96, _⟩ => ⟨S1x5, .f32⟩
  | .hbm, ⟨97, _⟩ => ⟨S500000x5, .f32⟩
  | .hbm, ⟨98, _⟩ => ⟨S500000x5, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S8000x128 : S_.BroadcastsInDim S8000x128 (![] : Fin 0 → Fin S8000x128.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x128_0_1 : S8000x1.BroadcastsInDim S8000x128 (![0, 1] : Fin 2 → Fin S8000x128.rank)
  bcast_S128_S1x128_1 : S128.BroadcastsInDim S1x128 (![1] : Fin 1 → Fin S1x128.rank)
  bcast_S1x128_S8000x128_0_1 : S1x128.BroadcastsInDim S8000x128 (![0, 1] : Fin 2 → Fin S8000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S5_S1x5_1 : S5.BroadcastsInDim S1x5 (![1] : Fin 1 → Fin S1x5.rank)
  bcast_S1x5_S500000x5_0_1 : S1x5.BroadcastsInDim S500000x5 (![0, 1] : Fin 2 → Fin S500000x5.rank)
  gather_S20000x128_S1000000x1_S1000000x128_1_0_n_n_0_1_1128_wf : GatherDims.WF S20000x128 S1000000x1 S1000000x128 [1] [0] [] [0] [] 1 ![1, 128]
  scatter_S8000x128_S1000000x1_S1000000x128_1_0_0_1_wf : ScatterDims.WF S8000x128 S1000000x1 S1000000x128 [1] [0] [0] 1
  scatter_S8000_S1000000x1_S1000000_n_0_0_1_wf : ScatterDims.WF S8000 S1000000x1 S1000000 [] [0] [0] 1
  dot_S8000x128_S128x128_S8000x128_1_0_0_1_n_n_wf : DotDims.WF S8000x128 S128x128 S8000x128 [1] [0] [0] [1] [] []
  gather_S8000x128_S1000000x1_S1000000x128_1_0_n_n_0_1_1128_wf : GatherDims.WF S8000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  dot_S20000x128_S128x128_S20000x128_1_0_0_1_n_n_wf : DotDims.WF S20000x128 S128x128 S20000x128 [1] [0] [0] [1] [] []
  gather_S20000x128_S500000x1_S500000x128_1_0_n_n_0_1_1128_wf : GatherDims.WF S20000x128 S500000x1 S500000x128 [1] [0] [] [0] [] 1 ![1, 128]
  gather_S8000x128_S500000x1_S500000x128_1_0_n_n_0_1_1128_wf : GatherDims.WF S8000x128 S500000x1 S500000x128 [1] [0] [] [0] [] 1 ![1, 128]
  dot_S500000x256_S256x5_S500000x5_1_0_0_1_n_n_wf : DotDims.WF S500000x256 S256x5 S500000x5 [1] [0] [0] [1] [] []

variable [Facts₀]

def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S8000x128_S1000000x1_S1000000x128_1_0_0_1 : ScatterDims S8000x128 S1000000x1 S1000000x128 where
  updateWindowDims := [1]
  insertedWindowDims := [0]
  scatterDimsToOperandDims := [0]
  indexVectorDim := 1
  wf := scatter_S8000x128_S1000000x1_S1000000x128_1_0_0_1_wf
def scatter_S8000_S1000000x1_S1000000_n_0_0_1 : ScatterDims S8000 S1000000x1 S1000000 where
  updateWindowDims := []
  insertedWindowDims := [0]
  scatterDimsToOperandDims := [0]
  indexVectorDim := 1
  wf := scatter_S8000_S1000000x1_S1000000_n_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S8000x128_S1000000x1_S1000000x128_1_0_n_n_0_1_1128 : GatherDims S8000x128 S1000000x1 S1000000x128 where
  offsetDims := [1]
  collapsedSliceDims := [0]
  operandBatchingDims := []
  startIndicesBatchingDims := []
  startIndexMap := [0]
  indexVectorDim := 1
  sliceSizes := ![1, 128]
  wf := gather_S8000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def gather_S8000x128_S500000x1_S500000x128_1_0_n_n_0_1_1128 : GatherDims S8000x128 S500000x1 S500000x128 where
  offsetDims := [1]
  collapsedSliceDims := [0]
  operandBatchingDims := []
  startIndicesBatchingDims := []
  startIndexMap := [0]
  indexVectorDim := 1
  sliceSizes := ![1, 128]
  wf := gather_S8000x128_S500000x1_S500000x128_1_0_n_n_0_1_1128_wf
def dot_S500000x256_S256x5_S500000x5_1_0_0_1_n_n : DotDims S500000x256 S256x5 S500000x5 where
  lhsContracting := [1]
  rhsContracting := [0]
  lhsNonContracting := [0]
  rhsNonContracting := [1]
  lhsBatch := []
  rhsBatch := []
  wf := dot_S500000x256_S256x5_S500000x5_1_0_0_1_n_n_wf

class Facts : Prop extends Facts₀ where

variable [Facts]
-- ==== Proof.SageRun.lean ====
/-
  The program's run with every buffer named.

  @main is five segments: host operations, the first kernel region, one host operation, the second kernel
  region, host operations.  The contents of the TensorCore's buffers at the segment boundaries are a fold from
  the launch memory: a stretch of host operations applies them, a region replaces its output array by what its
  grid points wrote back and leaves every other buffer alone.  The launch theorem for such a chain of segments
  gives: every weakly fair execution terminates, nothing faults, and every buffer that outlives the program ends
  at the last boundary's contents.
-/
import proofs.«112705_j33303176413369_1_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every buffer that outlives the program
    ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The run with the result buffer and the argument buffers named: the result at the last boundary's contents,
    every argument as launched. -/
theorem run_result : θ_run defs (onTc (τ := τ) (main (F := F))) ⟨m, fun _ => 0, ρ⟩ (fun r => ∀ c : Dev nD,
      r.2.mem ((c.tc : Thread nD τ).loc main_v61) = W5 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨h c _ (mem_uc main_v61 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c)⟩)
    (run_all m ρ)

end Cert.KernelIdeal.SageRun

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.SageSpec.lean ====
/-
  The value both programs compute, as one function of the arguments.

  A node's hidden feature is  hid(r, h) = (Σ_d mean(r, d) · Wl(d, h) + bl(h)) + Σ_d x(r, d) · Wr(d, h).
  For an edge label l with a drug row rD(l) and a protein row rP(l) the result is

     out(l, o) = (Σ_{h < 128} hidD(rD l, h) · W(h, o) + Σ_{h < 128} hidP(rP l, h) · W(128 + h, o)) + b(o).

  One program multiplies every node's hidden row by its half of W first and then picks rows; the other picks
  rows, lays the two hidden rows side by side as one row of 256 entries and multiplies by the whole W.  The two
  agree because a sum over 256 consecutive indices is the sum over the first 128 plus the sum over the last 128
  (`sum256_split`): only commutativity and associativity of addition are used, so no finiteness is needed.
-/
import Idealize.ShloMosaic.Lib.ValueIdx
import Idealize.ShloMosaic.PureOps.Ideal.Laws
import proofs.«112705_j33303176413369_1_alg».proof.Proof.LibMatProd

noncomputable section

open scoped BigOperators

namespace Sage

open Idealize.ShloMosaic Idealize.ShloMosaic.ValueIdx MatProd

/-- A rank-2 array of extended reals of extents `a × b`. -/
abbrev Arr2 (a b : ℕ) : Type := (⟨2, ![a, b]⟩ : Shape).Idx → EReal
/-- A rank-1 array of extended reals of extent `a`. -/
abbrev Arr1 (a : ℕ) : Type := (⟨1, ![a]⟩ : Shape).Idx → EReal

/-- Hidden feature `h` of node `r`: the aggregated neighbours through `Wl`, plus the bias, plus the node's own
    features through `Wr` — added in this order. -/
def hidE {n : ℕ} (mean x : Arr2 n 128) (Wl Wr : Arr2 128 128) (bl : Arr1 128) (r : Fin n) (h : Fin 128) : EReal :=
  (entry mean Wl r h + bl (ix1 h)) + entry x Wr r h

/-- The hidden features as an array. -/
def hid {n : ℕ} (mean x : Arr2 n 128) (Wl Wr : Arr2 128 128) (bl : Arr1 128) : Arr2 n 128 :=
  fun i => hidE mean x Wl Wr bl ⟨(i 0).val, idx2_lt0 i⟩ ⟨(i 1).val, idx2_lt1 i⟩

theorem hid_ix2 {n : ℕ} (mean x : Arr2 n 128) (Wl Wr : Arr2 128 128) (bl : Arr1 128) (r : Fin n) (h : Fin 128) :
    hid mean x Wl Wr bl (ix2 r h) = hidE mean x Wl Wr bl r h := rfl

/-- Rows `o … o + 127` of a matrix with 256 rows. -/
def half (o : ℕ) (ho : o + 128 ≤ 256) (W : Arr2 256 5) : Arr2 128 5 :=
  fun i => W (ix2 ⟨o + (i 0).val, by have := idx2_lt0 i; omega⟩ ⟨(i 1).val, idx2_lt1 i⟩)

theorem half_ix2 (o : ℕ) (ho : o + 128 ≤ 256) (W : Arr2 256 5) (h : Fin 128) (q : Fin 5) :
    half o ho W (ix2 h q) = W (ix2 ⟨o + h.val, by omega⟩ q) := rfl

/-- The row a gather along axis 0 reads for label `l`: the start index in column 0, read as a signed integer and
    clamped into `[0, N − 1]`. -/
def rowOf (N : ℕ) (hN : 0 < N) {L : ℕ} (idx : (⟨2, ![L, 1]⟩ : Shape).Idx → BitVec 32) (l : Fin L) : Fin N :=
  ⟨min (idx (ix2 l (0 : Fin 1))).toInt.toNat (N - 1), by omega⟩

/-- The result at label `l`, class `o`. -/
def outE (hD : Arr2 20000 128) (hP : Arr2 8000 128) (W : Arr2 256 5) (b : Arr1 5)
    (rD : Fin 500000 → Fin 20000) (rP : Fin 500000 → Fin 8000) (l : Fin 500000) (o : Fin 5) : EReal :=
  (entry hD (half 0 (by omega) W) (rD l) o + entry hP (half 128 (by omega) W) (rP l) o) + b (ix1 o)

/-- The result as an array. -/
def out (hD : Arr2 20000 128) (hP : Arr2 8000 128) (W : Arr2 256 5) (b : Arr1 5)
    (rD : Fin 500000 → Fin 20000) (rP : Fin 500000 → Fin 8000) : Arr2 500000 5 :=
  fun i => outE hD hP W b rD rP ⟨(i 0).val, idx2_lt0 i⟩ ⟨(i 1).val, idx2_lt1 i⟩

theorem out_ix2 (hD : Arr2 20000 128) (hP : Arr2 8000 128) (W : Arr2 256 5) (b : Arr1 5)
    (rD : Fin 500000 → Fin 20000) (rP : Fin 500000 → Fin 8000) (l : Fin 500000) (o : Fin 5) :
    out hD hP W b rD rP (ix2 l o) = outE hD hP W b rD rP l o := rfl

/-- A sum over 256 consecutive indices is the sum over the first 128 plus the sum over the last 128. -/
theorem sum256_split (f : Fin 256 → EReal) :
    ∑ k : Fin 256, f k = ∑ k : Fin 128, f ⟨k.val, by omega⟩ + ∑ k : Fin 128, f ⟨128 + k.val, by omega⟩ := by
  have h := Fin.sum_univ_add (a := 128) (b := 128) (fun i : Fin (128 + 128) => f ⟨i.val, i.isLt⟩)
  simp only [Fin.val_castAdd, Fin.val_natAdd] at h
  exact h

/-- A row of 256 entries made of a drug node's hidden row followed by a protein node's, times the whole `W`, is
    the two half products added. -/
theorem cat_entry (hD : Arr2 20000 128) (hP : Arr2 8000 128) (W : Arr2 256 5) (rd : Fin 20000) (rp : Fin 8000)
    (o : Fin 5) (cat : Fin 256 → EReal)
    (hl : ∀ k : Fin 128, cat ⟨k.val, by omega⟩ = hD (ix2 rd k))
    (hr : ∀ k : Fin 128, cat ⟨128 + k.val, by omega⟩ = hP (ix2 rp k)) :
    ∑ k : Fin 256, cat k * W (ix2 k o)
      = entry hD (half 0 (by omega) W) rd o + entry hP (half 128 (by omega) W) rp o := by
  rw [sum256_split]
  unfold entry
  congr 1
  · refine Finset.sum_congr rfl fun k _ => ?_
    rw [hl k, half_ix2]
    congr 3
    exact Fin.ext (Nat.zero_add _).symm
  · refine Finset.sum_congr rfl fun k _ => ?_
    rw [hr k, half_ix2]

end Sage

end
-- ==== Proof.SagePayload.lean ====
/-
  What one grid point stores, entry by entry.

  The body loads a block of 4000 rows of the aggregated features (`v0`) and of the node features (`v3`), the two
  128 × 128 weight matrices (`v5`, `v7`), the bias as one row (`v10`) and a 128 × 5 half of the classifier matrix
  (`v16`), and stores  ((v0 · v5 + v10) + v3 · v7) · v16.  On the extended reals the changes of float format are
  the identity and a matrix unit's product onto the zero accumulator is the plain sum of products, so the stored
  entry (p, q) is  Σ_h ((Σ_d v0(p,d) v5(d,h) + v10(0,h)) + Σ_d v3(p,d) v7(d,h)) · v16(h,q):  the projected hidden
  row of the block's row p.
-/
import proofs.«112705_j33303176413369_1_alg».proof.Proof.Gen.KernelIdeal.Skeleton
import proofs.«112705_j33303176413369_1_alg».proof.Proof.SageSpec
import Idealize.ShloMosaic.Lib.Pipeline.Value
import Idealize.ShloMosaic.Lib.ValueLayout

noncomputable section

open scoped BigOperators

namespace Cert.KernelIdeal.SagePay

open Cert.KernelIdeal Cert.KernelIdeal.Gen
open Idealize.ShloMosaic Idealize.ShloMosaic.ValueIdx MatProd Sage

/-! ## The two contractions' index maps: left operand at (row, contracted), right operand at (contracted, column) -/

theorem dA_l0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dA_l1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem dA_r0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem dA_r1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

theorem dC_l0 (i : S4000x5.Idx) (q : dot_S4000x128_S128x5_S4000x5_1_0_0_1_n_n.contr.Idx) :
    (dot_S4000x128_S128x5_S4000x5_1_0_0_1_n_n.lhsIdx i q 0).val = (i 0).val := by
  unfold DotDims.lhsIdx
  rw [dif_neg (show ¬(0 : Fin S4000x128.rank) ∈ dot_S4000x128_S128x5_S4000x5_1_0_0_1_n_n.lhsBatch by decide),
    dif_pos (show (0 : Fin S4000x128.rank) ∈ dot_S4000x128_S128x5_S4000x5_1_0_0_1_n_n.lhsNonContracting by decide)]
  rfl
theorem dC_l1 (i : S4000x5.Idx) (q : dot_S4000x128_S128x5_S4000x5_1_0_0_1_n_n.contr.Idx) :
    (dot_S4000x128_S128x5_S4000x5_1_0_0_1_n_n.lhsIdx i q 1).val = (q ⟨0, by decide⟩).val :=
  dot_S4000x128_S128x5_S4000x5_1_0_0_1_n_n.lhsIdx_val_of_single rfl i q
theorem dC_r0 (i : S4000x5.Idx) (q : dot_S4000x128_S128x5_S4000x5_1_0_0_1_n_n.contr.Idx) :
    (dot_S4000x128_S128x5_S4000x5_1_0_0_1_n_n.rhsIdx i q 0).val = (q ⟨0, by decide⟩).val :=
  dot_S4000x128_S128x5_S4000x5_1_0_0_1_n_n.rhsIdx_val_of_single rfl i q
theorem dC_r1 (i : S4000x5.Idx) (q : dot_S4000x128_S128x5_S4000x5_1_0_0_1_n_n.contr.Idx) :
    (dot_S4000x128_S128x5_S4000x5_1_0_0_1_n_n.rhsIdx i q 1).val = (i 1).val := by
  unfold DotDims.rhsIdx
  rw [dif_neg (show ¬(1 : Fin S128x5.rank) ∈ dot_S4000x128_S128x5_S4000x5_1_0_0_1_n_n.rhsBatch by decide),
    dif_pos (show (1 : Fin S128x5.rank) ∈ dot_S4000x128_S128x5_S4000x5_1_0_0_1_n_n.rhsNonContracting by decide)]
  rfl

/-- A 4000 × 128 by 128 × 128 product onto the zero accumulator, at (p, h). -/
theorem mmA (A : FVec Ideal S4000x128 .bf16) (B : FVec Ideal S128x128 .bf16) (p : Fin 4000) (h : Fin 128) :
    matmul dot_S4000x128_S128x128_S4000x128_1_0_0_1_n_n none A B (constant (F := Ideal) S4000x128 .f32 0x00000000#32) (ix2 p h)
      = entry A B p h :=
  matmul_zero_entry dot_S4000x128_S128x128_S4000x128_1_0_0_1_n_n none rfl rfl dA_l0 dA_l1 dA_r0 dA_r1 A B p h

/-- A 4000 × 128 by 128 × 5 product onto the zero accumulator, at (p, q). -/
theorem mmC (A : FVec Ideal S4000x128 .bf16) (B : FVec Ideal S128x5 .bf16) (p : Fin 4000) (q : Fin 5) :
    matmul dot_S4000x128_S128x5_S4000x5_1_0_0_1_n_n none A B (constant (F := Ideal) S4000x5 .f32 0x00000000#32) (ix2 p q)
      = entry A B p q :=
  matmul_zero_entry dot_S4000x128_S128x5_S4000x5_1_0_0_1_n_n none rfl rfl dC_l0 dC_l1 dC_r0 dC_r1 A B p q

/-- THE STORED ENTRY (p, q): the hidden row of the block's row `p` against column `q` of the classifier half. -/
theorem pay_entry (v0 v3 : Vec Ideal S4000x128 .f32) (v5 v7 : Vec Ideal S128x128 .f32) (v10 : Vec Ideal S1x128 .f32)
    (v16 : Vec Ideal S128x5 .f32) (p : Fin 4000) (q : Fin 5) :
    k0_pay1 (F := Ideal) v0 v3 v5 v7 v10 v16 (ix2 p q)
      = ∑ h : Fin 128, ((entry v0 v5 p h + v10 (ix2 (0 : Fin 1) h)) + entry v3 v7 p h) * v16 (ix2 h q) := by
  unfold k0_pay1
  refine (mmC _ _ p q).trans ?_
  unfold entry
  refine Finset.sum_congr rfl fun h _ => ?_
  have e1 : matmul dot_S4000x128_S128x128_S4000x128_1_0_0_1_n_n none
      (truncf .bf16 (shapeCast S4000x128 v0 shapeCasts_S4000x128_S4000x128) bitsLt_bf16_f32)
      (truncf .bf16 v5 bitsLt_bf16_f32) (constant (F := Ideal) S4000x128 .f32 0x00000000#32) (ix2 p h)
      = ∑ d : Fin 128, v0 (ix2 p d) * v5 (ix2 d h) := by
    refine (mmA _ _ p h).trans ?_
    unfold entry
    rw [shapeCast_self]
    rfl
  have e2 : matmul dot_S4000x128_S128x128_S4000x128_1_0_0_1_n_n none
      (truncf .bf16 v3 bitsLt_bf16_f32)
      (truncf .bf16 v7 bitsLt_bf16_f32) (constant (F := Ideal) S4000x128 .f32 0x00000000#32) (ix2 p h)
      = ∑ d : Fin 128, v3 (ix2 p d) * v7 (ix2 d h) := (mmA _ _ p h).trans rfl
  have e3 : broadcastTo S4000x128 (shapeCast S1x128 v10 shapeCasts_S1x128_S1x128) broadcasts_S1x128_S4000x128 (ix2 p h)
      = v10 (ix2 (0 : Fin 1) h) := by
    rw [shapeCast_self]
    exact broadcastTo_1b_ab_apply v10 broadcasts_S1x128_S4000x128 p h
  have e4 : shapeCast S128x5 v16 shapeCasts_S128x5_S128x5 (ix2 h q) = v16 (ix2 h q) := by rw [shapeCast_self]
  show ((matmul (F := Ideal) dot_S4000x128_S128x128_S4000x128_1_0_0_1_n_n none
        (truncf .bf16 (shapeCast S4000x128 v0 shapeCasts_S4000x128_S4000x128) bitsLt_bf16_f32)
        (truncf .bf16 v5 bitsLt_bf16_f32) (constant (F := Ideal) S4000x128 .f32 0x00000000#32) (ix2 p h)
      + broadcastTo S4000x128 (shapeCast S1x128 v10 shapeCasts_S1x128_S1x128) broadcasts_S1x128_S4000x128 (ix2 p h))
      + matmul (F := Ideal) dot_S4000x128_S128x128_S4000x128_1_0_0_1_n_n none
        (truncf .bf16 v3 bitsLt_bf16_f32)
        (truncf .bf16 v7 bitsLt_bf16_f32) (constant (F := Ideal) S4000x128 .f32 0x00000000#32) (ix2 p h))
      * shapeCast S128x5 v16 shapeCasts_S128x5_S128x5 (ix2 h q) = _
  rw [e1, e2, e3, e4]

end Cert.KernelIdeal.SagePay

end
-- ==== Proof.SageBlocks.lean ====
/-
  From blocks to arrays: what each kernel region leaves in its output array.

  A region walks a grid of row blocks, 4000 rows each.  At a point it finds row block t of the aggregated
  features and of the node features, the whole weight matrices, the bias row and the classifier half, and writes
  back row block t of the output.  By the stored-entry lemma the entry written at row p of block t, column q, is
  the projected hidden row of array row 4000·t + p: the blocks are restrictions of ONE whole-array function, and
  since the row blocks tile the output array, the array ends holding that function.
-/
import proofs.«112705_j33303176413369_1_alg».proof.Proof.Gen.KernelIdeal.Frame
import proofs.«112705_j33303176413369_1_alg».proof.Proof.SagePayload
import proofs.«112705_j33303176413369_1_alg».proof.Proof.SageSpec
import Idealize.ShloMosaic.Lib.Pipeline.Value

set_option maxRecDepth 16384

noncomputable section

open scoped BigOperators

namespace Sage

open Idealize.ShloMosaic Idealize.ShloMosaic.ValueIdx MatProd

/-- The projected hidden row with the bias given as a one-row array: entry (r, q). -/
def projE {n : ℕ} (A0 A1 : Arr2 n 128) (A2 A4 : Arr2 128 128) (A3 : Arr2 1 128) (A5 : Arr2 128 5) (r : Fin n) (q : Fin 5) :
    EReal :=
  ∑ h : Fin 128, ((entry A0 A2 r h + A3 (ix2 (0 : Fin 1) h)) + entry A1 A4 r h) * A5 (ix2 h q)

/-- The projected hidden rows as an array. -/
def proj {n : ℕ} (A0 A1 : Arr2 n 128) (A2 A4 : Arr2 128 128) (A3 : Arr2 1 128) (A5 : Arr2 128 5) : Arr2 n 5 :=
  fun i => projE A0 A1 A2 A4 A3 A5 ⟨(i 0).val, idx2_lt0 i⟩ ⟨(i 1).val, idx2_lt1 i⟩

theorem proj_ix2 {n : ℕ} (A0 A1 : Arr2 n 128) (A2 A4 : Arr2 128 128) (A3 : Arr2 1 128) (A5 : Arr2 128 5) (r : Fin n)
    (q : Fin 5) : proj A0 A1 A2 A4 A3 A5 (ix2 r q) = projE A0 A1 A2 A4 A3 A5 r q := rfl

/-- A block's stored entry is the array's projected hidden row, when row `p` of the two row-blocked inputs is row
    `r` of their arrays and the other inputs are their whole arrays. -/
theorem block_row {n : ℕ} (A0 A1 : Arr2 n 128) (A2 A4 : Arr2 128 128) (A3 : Arr2 1 128) (A5 : Arr2 128 5)
    (B0 B1 : Arr2 4000 128) (B2 B4 : Arr2 128 128) (B3 : Arr2 1 128) (B5 : Arr2 128 5) (p : Fin 4000) (r : Fin n) (q : Fin 5)
    (h0 : ∀ d, B0 (ix2 p d) = A0 (ix2 r d)) (h1 : ∀ d, B1 (ix2 p d) = A1 (ix2 r d))
    (h2 : ∀ d h, B2 (ix2 d h) = A2 (ix2 d h)) (h3 : ∀ h, B3 (ix2 (0 : Fin 1) h) = A3 (ix2 (0 : Fin 1) h))
    (h4 : ∀ d h, B4 (ix2 d h) = A4 (ix2 d h)) (h5 : ∀ h q', B5 (ix2 h q') = A5 (ix2 h q')) :
    ∑ h : Fin 128, ((entry B0 B2 p h + B3 (ix2 (0 : Fin 1) h)) + entry B1 B4 p h) * B5 (ix2 h q)
      = proj A0 A1 A2 A4 A3 A5 (ix2 r q) := by
  rw [proj_ix2]
  unfold projE entry
  simp only [h0, h1, h2, h3, h4, h5]

end Sage

namespace Cert.KernelIdeal.SageBlocks

open Cert.KernelIdeal Cert.KernelIdeal.Gen
open Idealize.ShloMosaic Idealize.ShloMosaic.TcCoe Idealize.ShloMosaic.ValueIdx MatProd Sage
open Idealize.SL.Sem
open Idealize.ShloMosaic.Pipeline (Dat Cfg Window)

theorem hz : (![0, 0] : Fin 2 → Nat) = fun _ => 0 := funext fun a => by fin_cases a <;> rfl

-- the TensorCore's buffer contents when a region is entered
variable (V : (c : Dev nD) → (b : Ref sig .tc) → Buf (Elt Ideal) ((c : Thread nD τ).loc b))

/-! ## Region 0: 2 grid points of 4000 rows each over 8000 rows -/

/-- The printed index maps over the grid: the two row-blocked inputs move with the output's row block, the weight,
    bias and classifier windows sit at block 0, and the output's blocks are the 2 row blocks. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 1 :=
  (by decide +kernel : ∀ t : Fin grid0.N, _)

/-- Every row block is some point's. -/
theorem idx_onto0 : ∀ q0 : Fin 2, ∃ t : Fin cfg0.N, win0_6.index t = ![q0.val, 0] :=
  (by decide +kernel : ∀ q0 : Fin 2, ∃ t : Fin grid0.N, win0_6.index t = ![q0.val, 0])

/-- WHAT POINT `t` WRITES BACK is block `t` of the projected hidden rows of the arrays the region finds. -/
theorem flushed0_eq (c : Dev nD) (t : Fin cfg0.N) :
    (dat0 V c).flushed 6 t = ((cfg0.win 6).blk t).view.read (Elt Ideal)
      (proj (V c main_v18 : Arr2 8000 128) (V c main_arg1 : Arr2 8000 128) (V c main_arg2 : Arr2 128 128) (V c main_arg4 : Arr2 128 128)
        (V c main_v40 : Arr2 1 128) (V c main_v39 : Arr2 128 5)) := by
  show (cfg0.win 6).cut (grid0.coords t) ((dat0 V c).after 6 t) = _
  rw [after0_6]
  unfold out0_6
  rw [View.canon_unit_zero hz]
  simp only [View.ld_unit_zero (S := S4000x128) hz, View.ld_unit_zero (S := S128x128) hz,
    View.ld_unit_zero (S := S1x128) hz, View.ld_unit_zero (S := S128x5) hz]
  obtain ⟨e00, e01, e10, e11, e20, e21, e30, e31, e40, e41, e50, e51, e61, e60⟩ := idx_facts0 t
  funext j
  obtain ⟨p, q, rfl⟩ : ∃ (p : Fin 4000) (q : Fin 5), j = ix2 p q := ⟨j 0, j 1, eq_ix2 j⟩
  have hr : win0_6.index t (0 : Fin 2) * 4000 + p.val < 8000 := by have := p.isLt; omega
  have he : ((cfg0.win 6).blk t).view.emb (ix2 p q)
      = ix2 (⟨win0_6.index t (0 : Fin 2) * 4000 + p.val, hr⟩ : Fin 8000) q := by
    funext a; apply Fin.ext
    match a with
    | ⟨0, _⟩ => show win0_6.index t (0 : Fin 2) * 4000 + 1 * p.val = win0_6.index t (0 : Fin 2) * 4000 + p.val; omega
    | ⟨1, _⟩ => show win0_6.index t (1 : Fin 2) * 5 + 1 * q.val = q.val; omega
  show k0_pay1 (F := Ideal) (iblk0 V c 0 t) (iblk0 V c 1 t) (iblk0 V c 2 t) (iblk0 V c 4 t) (iblk0 V c 3 t) (iblk0 V c 5 t) (ix2 p q)
      = (proj (V c main_v18 : Arr2 8000 128) (V c main_arg1 : Arr2 8000 128) (V c main_arg2 : Arr2 128 128) (V c main_arg4 : Arr2 128 128)
        (V c main_v40 : Arr2 1 128) (V c main_v39 : Arr2 128 5)) (((cfg0.win 6).blk t).view.emb (ix2 p q))
  rw [he]
  refine (SagePay.pay_entry (iblk0 V c 0 t) (iblk0 V c 1 t) (iblk0 V c 2 t) (iblk0 V c 4 t) (iblk0 V c 3 t) (iblk0 V c 5 t) p q).trans ?_
  refine block_row _ _ _ _ _ _ _ _ _ _ _ _ p _ q (fun d => ?_) (fun d => ?_) (fun d h => ?_) (fun h => ?_) (fun d h => ?_) (fun h q' => ?_)
  · show V c main_v18 (((cfg0.win 0).blk t).view.emb (ix2 p d)) = V c main_v18 (ix2 (⟨win0_6.index t (0 : Fin 2) * 4000 + p.val, hr⟩ : Fin 8000) d)
    refine congrArg _ (funext fun a => Fin.ext ?_)
    match a with
    | ⟨0, _⟩ => show win0_0.index t (0 : Fin 2) * 4000 + 1 * p.val = win0_6.index t (0 : Fin 2) * 4000 + p.val; omega
    | ⟨1, _⟩ => show win0_0.index t (1 : Fin 2) * 128 + 1 * d.val = d.val; omega
  · show V c main_arg1 (((cfg0.win 1).blk t).view.emb (ix2 p d)) = V c main_arg1 (ix2 (⟨win0_6.index t (0 : Fin 2) * 4000 + p.val, hr⟩ : Fin 8000) d)
    refine congrArg _ (funext fun a => Fin.ext ?_)
    match a with
    | ⟨0, _⟩ => show win0_1.index t (0 : Fin 2) * 4000 + 1 * p.val = win0_6.index t (0 : Fin 2) * 4000 + p.val; omega
    | ⟨1, _⟩ => show win0_1.index t (1 : Fin 2) * 128 + 1 * d.val = d.val; omega
  · show V c main_arg2 (((cfg0.win 2).blk t).view.emb (ix2 d h)) = V c main_arg2 (ix2 d h)
    refine congrArg _ (funext fun a => Fin.ext ?_)
    match a with
    | ⟨0, _⟩ => show win0_2.index t (0 : Fin 2) * 128 + 1 * d.val = d.val; omega
    | ⟨1, _⟩ => show win0_2.index t (1 : Fin 2) * 128 + 1 * h.val = h.val; omega
  · show V c main_v40 (((cfg0.win 3).blk t).view.emb (ix2 (0 : Fin 1) h)) = V c main_v40 (ix2 (0 : Fin 1) h)
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * h.val = h.val; omega
  · show V c main_arg4 (((cfg0.win 4).blk t).view.emb (ix2 d h)) = V c main_arg4 (ix2 d h)
    refine congrArg _ (funext fun a => Fin.ext ?_)
    match a with
    | ⟨0, _⟩ => show win0_4.index t (0 : Fin 2) * 128 + 1 * d.val = d.val; omega
    | ⟨1, _⟩ => show win0_4.index t (1 : Fin 2) * 128 + 1 * h.val = h.val; omega
  · show V c main_v39 (((cfg0.win 5).blk t).view.emb (ix2 h q')) = V c main_v39 (ix2 h q')
    refine congrArg _ (funext fun a => Fin.ext ?_)
    match a with
    | ⟨0, _⟩ => show win0_5.index t (0 : Fin 2) * 128 + 1 * h.val = h.val; omega
    | ⟨1, _⟩ => show win0_5.index t (1 : Fin 2) * 5 + 1 * q'.val = q'.val; omega

/-- An index of the output array is in point `t`'s block iff each coordinate is in the block's range on its axis. -/
theorem mem_blk0 (t : Fin cfg0.N) (i : S8000x5.Idx) :
    i ∈ ((cfg0.win 6).blk t).view.set ↔ ∀ a : Fin 2, win0_6.index t a * S4000x5.size a ≤ (i a).val
      ∧ (i a).val < win0_6.index t a * S4000x5.size a + S4000x5.size a := by
  show i ∈ ((View.whole main_v41).slice (win0_6.rect t)).set ↔ _
  rw [View.set_slice_whole, Rect.mem_set_unit]
  exact Iff.rfl

/-- Every index of the output array is in some point's block: row `r` is in row block `r / 4000`. -/
theorem cover0 (i : S8000x5.Idx) :
    ∃ t : Fin cfg0.N, (cfg0.win 6).flush t = true ∧ i ∈ ((cfg0.win 6).blk t).view.set := by
  have hi0 : (i 0).val < 8000 := (i 0).isLt
  have hi1 : (i 1).val < 5 := (i 1).isLt
  obtain ⟨t, ht⟩ := idx_onto0 ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_blk0]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 5 ≤ (i 1).val ∧ (i 1).val < win0_6.index t (1 : Fin 2) * 5 + 5
    omega

/-- THE OUTPUT ARRAY after region 0: the projected hidden rows of the arrays the region finds. -/
theorem final0 (c : Dev nD) : (dat0 V c).arrAt 6 cfg0.N
    = (proj (V c main_v18 : Arr2 8000 128) (V c main_arg1 : Arr2 8000 128) (V c main_arg2 : Arr2 128 128) (V c main_arg4 : Arr2 128 128)
        (V c main_v40 : Arr2 1 128) (V c main_v39 : Arr2 128 5)) :=
  (dat0 V c).arrAt_eq_of_cover 6 _ (fun t _ => flushed0_eq V c t) (cover0)

/-! ## Region 1: 5 grid points of 4000 rows each over 20000 rows -/

/-- The printed index maps over the grid: the two row-blocked inputs move with the output's row block, the weight,
    bias and classifier windows sit at block 0, and the output's blocks are the 5 row blocks. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 4 :=
  (by decide +kernel : ∀ t : Fin grid1.N, _)

/-- Every row block is some point's. -/
theorem idx_onto1 : ∀ q0 : Fin 5, ∃ t : Fin cfg1.N, win1_6.index t = ![q0.val, 0] :=
  (by decide +kernel : ∀ q0 : Fin 5, ∃ t : Fin grid1.N, win1_6.index t = ![q0.val, 0])

/-- WHAT POINT `t` WRITES BACK is block `t` of the projected hidden rows of the arrays the region finds. -/
theorem flushed1_eq (c : Dev nD) (t : Fin cfg1.N) :
    (dat1 V c).flushed 6 t = ((cfg1.win 6).blk t).view.read (Elt Ideal)
      (proj (V c main_v37 : Arr2 20000 128) (V c main_arg0 : Arr2 20000 128) (V c main_arg5 : Arr2 128 128) (V c main_arg7 : Arr2 128 128)
        (V c main_v42 : Arr2 1 128) (V c main_v38 : Arr2 128 5)) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x128) hz,
    View.ld_unit_zero (S := S1x128) hz, View.ld_unit_zero (S := S128x5) hz]
  obtain ⟨e00, e01, e10, e11, e20, e21, e30, e31, e40, e41, e50, e51, e61, e60⟩ := idx_facts1 t
  funext j
  obtain ⟨p, q, rfl⟩ : ∃ (p : Fin 4000) (q : Fin 5), j = ix2 p q := ⟨j 0, j 1, eq_ix2 j⟩
  have hr : win1_6.index t (0 : Fin 2) * 4000 + p.val < 20000 := by have := p.isLt; omega
  have he : ((cfg1.win 6).blk t).view.emb (ix2 p q)
      = ix2 (⟨win1_6.index t (0 : Fin 2) * 4000 + p.val, hr⟩ : Fin 20000) q := by
    funext a; apply Fin.ext
    match a with
    | ⟨0, _⟩ => show win1_6.index t (0 : Fin 2) * 4000 + 1 * p.val = win1_6.index t (0 : Fin 2) * 4000 + p.val; omega
    | ⟨1, _⟩ => show win1_6.index t (1 : Fin 2) * 5 + 1 * q.val = q.val; omega
  show k1_pay1 (F := Ideal) (iblk1 V c 0 t) (iblk1 V c 1 t) (iblk1 V c 2 t) (iblk1 V c 4 t) (iblk1 V c 3 t) (iblk1 V c 5 t) (ix2 p q)
      = (proj (V c main_v37 : Arr2 20000 128) (V c main_arg0 : Arr2 20000 128) (V c main_arg5 : Arr2 128 128) (V c main_arg7 : Arr2 128 128)
        (V c main_v42 : Arr2 1 128) (V c main_v38 : Arr2 128 5)) (((cfg1.win 6).blk t).view.emb (ix2 p q))
  rw [he]
  refine (SagePay.pay_entry (iblk1 V c 0 t) (iblk1 V c 1 t) (iblk1 V c 2 t) (iblk1 V c 4 t) (iblk1 V c 3 t) (iblk1 V c 5 t) p q).trans ?_
  refine block_row _ _ _ _ _ _ _ _ _ _ _ _ p _ q (fun d => ?_) (fun d => ?_) (fun d h => ?_) (fun h => ?_) (fun d h => ?_) (fun h q' => ?_)
  · show V c main_v37 (((cfg1.win 0).blk t).view.emb (ix2 p d)) = V c main_v37 (ix2 (⟨win1_6.index t (0 : Fin 2) * 4000 + p.val, hr⟩ : Fin 20000) d)
    refine congrArg _ (funext fun a => Fin.ext ?_)
    match a with
    | ⟨0, _⟩ => show win1_0.index t (0 : Fin 2) * 4000 + 1 * p.val = win1_6.index t (0 : Fin 2) * 4000 + p.val; omega
    | ⟨1, _⟩ => show win1_0.index t (1 : Fin 2) * 128 + 1 * d.val = d.val; omega
  · show V c main_arg0 (((cfg1.win 1).blk t).view.emb (ix2 p d)) = V c main_arg0 (ix2 (⟨win1_6.index t (0 : Fin 2) * 4000 + p.val, hr⟩ : Fin 20000) d)
    refine congrArg _ (funext fun a => Fin.ext ?_)
    match a with
    | ⟨0, _⟩ => show win1_1.index t (0 : Fin 2) * 4000 + 1 * p.val = win1_6.index t (0 : Fin 2) * 4000 + p.val; omega
    | ⟨1, _⟩ => show win1_1.index t (1 : Fin 2) * 128 + 1 * d.val = d.val; omega
  · show V c main_arg5 (((cfg1.win 2).blk t).view.emb (ix2 d h)) = V c main_arg5 (ix2 d h)
    refine congrArg _ (funext fun a => Fin.ext ?_)
    match a with
    | ⟨0, _⟩ => show win1_2.index t (0 : Fin 2) * 128 + 1 * d.val = d.val; omega
    | ⟨1, _⟩ => show win1_2.index t (1 : Fin 2) * 128 + 1 * h.val = h.val; omega
  · show V c main_v42 (((cfg1.win 3).blk t).view.emb (ix2 (0 : Fin 1) h)) = V c main_v42 (ix2 (0 : Fin 1) h)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * h.val = h.val; omega
  · show V c main_arg7 (((cfg1.win 4).blk t).view.emb (ix2 d h)) = V c main_arg7 (ix2 d h)
    refine congrArg _ (funext fun a => Fin.ext ?_)
    match a with
    | ⟨0, _⟩ => show win1_4.index t (0 : Fin 2) * 128 + 1 * d.val = d.val; omega
    | ⟨1, _⟩ => show win1_4.index t (1 : Fin 2) * 128 + 1 * h.val = h.val; omega
  · show V c main_v38 (((cfg1.win 5).blk t).view.emb (ix2 h q')) = V c main_v38 (ix2 h q')
    refine congrArg _ (funext fun a => Fin.ext ?_)
    match a with
    | ⟨0, _⟩ => show win1_5.index t (0 : Fin 2) * 128 + 1 * h.val = h.val; omega
    | ⟨1, _⟩ => show win1_5.index t (1 : Fin 2) * 5 + 1 * q'.val = q'.val; omega

/-- An index of the output array is in point `t`'s block iff each coordinate is in the block's range on its axis. -/
theorem mem_blk1 (t : Fin cfg1.N) (i : S20000x5.Idx) :
    i ∈ ((cfg1.win 6).blk t).view.set ↔ ∀ a : Fin 2, win1_6.index t a * S4000x5.size a ≤ (i a).val
      ∧ (i a).val < win1_6.index t a * S4000x5.size a + S4000x5.size a := by
  show i ∈ ((View.whole main_v43).slice (win1_6.rect t)).set ↔ _
  rw [View.set_slice_whole, Rect.mem_set_unit]
  exact Iff.rfl

/-- Every index of the output array is in some point's block: row `r` is in row block `r / 4000`. -/
theorem cover1 (i : S20000x5.Idx) :
    ∃ t : Fin cfg1.N, (cfg1.win 6).flush t = true ∧ i ∈ ((cfg1.win 6).blk t).view.set := by
  have hi0 : (i 0).val < 20000 := (i 0).isLt
  have hi1 : (i 1).val < 5 := (i 1).isLt
  obtain ⟨t, ht⟩ := idx_onto1 ⟨(i 0).val / 4000, by omega⟩
  have q0 : win1_6.index t (0 : Fin 2) = (i 0).val / 4000 := congrFun ht 0
  have q1 : win1_6.index t (1 : Fin 2) = 0 := congrFun ht 1
  refine ⟨t, flush1_6 t, ?_⟩
  rw [mem_blk1]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 5 ≤ (i 1).val ∧ (i 1).val < win1_6.index t (1 : Fin 2) * 5 + 5
    omega

/-- THE OUTPUT ARRAY after region 1: the projected hidden rows of the arrays the region finds. -/
theorem final1 (c : Dev nD) : (dat1 V c).arrAt 6 cfg1.N
    = (proj (V c main_v37 : Arr2 20000 128) (V c main_arg0 : Arr2 20000 128) (V c main_arg5 : Arr2 128 128) (V c main_arg7 : Arr2 128 128)
        (V c main_v42 : Arr2 1 128) (V c main_v38 : Arr2 128 5)) :=
  (dat1 V c).arrAt_eq_of_cover 6 _ (fun t _ => flushed1_eq V c t) (cover1)

end Cert.KernelIdeal.SageBlocks

end
-- ==== Proof.LibGatherRows.lean ====
/-
  A gather of whole rows of a rank-2 array, read at coordinates.

  What `x[idx]` of an array `x : [N, C]` at a vector of row numbers lowers to: a gather whose start indices are a
  column `[L, 1]`, whose one start component names axis 0, which collapses axis 0 and keeps axis 1 whole (slice
  sizes `[1, C]`).  Result element `(l, q)` is `x` at row `idx[l, 0]`, read as a signed integer and clamped into
  `[0, N − 1]`, and column `q`.  In particular the row read depends on `l` only: a gather of rows commutes with
  any operation that acts on each row by itself.
-/
import Idealize.ShloMosaic.Lib.ValueIdx

noncomputable section

namespace GatherRows

open Idealize.ShloMosaic Idealize.ShloMosaic.ValueIdx

variable {α : Type}

/-- The dimension numbers of a gather of whole rows: operand `[N, C]`, start indices `[L, 1]`, result `[L, C]`. -/
abbrev rowsDims (N C L : Nat)
    (wf : GatherDims.WF ⟨2, ![N, C]⟩ ⟨2, ![L, 1]⟩ ⟨2, ![L, C]⟩ [1] [0] [] [0] [] 1 ![1, C]) :
    GatherDims ⟨2, ![N, C]⟩ ⟨2, ![L, 1]⟩ ⟨2, ![L, C]⟩ where
  offsetDims := [1]
  collapsedSliceDims := [0]
  operandBatchingDims := []
  startIndicesBatchingDims := []
  startIndexMap := [0]
  indexVectorDim := 1
  sliceSizes := ![1, C]
  wf := wf

/-- The gather read at `(l, q)`: row `idx[l, 0]` clamped into `[0, N − 1]`, column `q`. -/
theorem gather_rows_apply {N C L w : Nat} (hN : 0 < N)
    (wf : GatherDims.WF ⟨2, ![N, C]⟩ ⟨2, ![L, 1]⟩ ⟨2, ![L, C]⟩ [1] [0] [] [0] [] 1 ![1, C])
    (x : (⟨2, ![N, C]⟩ : Shape).Idx → α) (idx : IVec ⟨2, ![L, 1]⟩ w) (l : Fin L) (q : Fin C) :
    Host.gather (rowsDims N C L wf) x idx (ix2 l q)
      = x (ix2 ⟨min (idx (ix2 l (0 : Fin 1))).toInt.toNat (N - 1), by omega⟩ q) := by
  unfold Host.gather
  congr 1
  funext a
  refine Fin.ext ?_
  have key0 : (rowsDims N C L wf).start (ix2 l q) idx (0 : Fin 2) + (rowsDims N C L wf).batchCoord (ix2 l q) (0 : Fin 2)
      + (rowsDims N C L wf).offCoord (ix2 l q) (0 : Fin 2) = min (idx (ix2 l (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (rowsDims N C L wf).siIdx (ix2 l q) ⟨List.idxOf (0 : Fin 2) (rowsDims N C L wf).startIndexMap,
        List.idxOf_lt_length_iff.2 (List.mem_singleton.mpr rfl)⟩ = ix2 l (0 : Fin 1) := by
      funext b; refine Fin.ext ?_
      match b with
      | ⟨0, _⟩ => rfl
      | ⟨1, _⟩ => rfl
    rw [hsi]
    rfl
  have key1 : (rowsDims N C L wf).start (ix2 l q) idx (1 : Fin 2) + (rowsDims N C L wf).batchCoord (ix2 l q) (1 : Fin 2)
      + (rowsDims N C L wf).offCoord (ix2 l q) (1 : Fin 2) = q.val := by
    rw [GatherDims.batchCoord_eq_zero _ _ _ List.not_mem_nil]
    unfold GatherDims.start
    rw [dif_neg (show ¬ (1 : Fin 2) ∈ [(0 : Fin 2)] by decide)]
    simp only [Nat.add_zero, Nat.zero_add]
    rfl
  match a with
  | ⟨0, _⟩ => exact key0
  | ⟨1, _⟩ => exact key1

end GatherRows

end
-- ==== Proof.SageRef.lean ====
/-
  The reference, read at a label and a class, is the specification.

  The reference forms each node type's hidden features  (mean · Wl + bl) + x · Wr  as whole arrays, picks the drug
  row and the protein row of every edge label (a gather of whole rows: the row number read signed and clamped),
  lays the two rows side by side as one row of 256 entries, multiplies by the 256 × 5 classifier matrix and adds
  the class bias.  A row of 256 entries times the matrix is the sum of the two half products (`Sage.cat_entry`).
-/
import proofs.«112705_j33303176413369_1_alg».proof.Proof.Gen.ReferenceIdeal.Read
import proofs.«112705_j33303176413369_1_alg».proof.Proof.SageSpec
import proofs.«112705_j33303176413369_1_alg».proof.Proof.LibGatherRows
import Idealize.ShloMosaic.Lib.Pipeline.Value

noncomputable section

open scoped BigOperators

namespace Cert.ReferenceIdeal.SageRef

open Cert.ReferenceIdeal Cert.ReferenceIdeal.Gen Cert.ReferenceIdeal.Read
open Idealize.ShloMosaic Idealize.ShloMosaic.ValueIdx MatProd Sage GatherRows

abbrev TD : Type := (⟨S20000x128, .f32⟩ : BufTy).Contents (Elt Ideal)
abbrev TP : Type := (⟨S8000x128, .f32⟩ : BufTy).Contents (Elt Ideal)
abbrev TW : Type := (⟨S128x128, .f32⟩ : BufTy).Contents (Elt Ideal)
abbrev TB : Type := (⟨S128, .f32⟩ : BufTy).Contents (Elt Ideal)
abbrev TE : Type := (⟨S1000000, .i32⟩ : BufTy).Contents (Elt Ideal)
abbrev TL : Type := (⟨S500000, .i32⟩ : BufTy).Contents (Elt Ideal)
abbrev TC : Type := (⟨S256x5, .f32⟩ : BufTy).Contents (Elt Ideal)
abbrev TO : Type := (⟨S5, .f32⟩ : BufTy).Contents (Elt Ideal)

/-! ## The printed index maps are the coordinates -/

theorem l19 (r : Fin 8000) (h k : Fin 128) : lidx_main_v19 (ix2 r h) k = ix2 r k :=
  funext fun a => Fin.ext (by match a with | ⟨0, _⟩ => rfl | ⟨1, _⟩ => rfl)
theorem r19 (r : Fin 8000) (h k : Fin 128) : ridx_main_v19 (ix2 r h) k = ix2 k h :=
  funext fun a => Fin.ext (by match a with | ⟨0, _⟩ => rfl | ⟨1, _⟩ => rfl)
theorem l23 (r : Fin 8000) (h k : Fin 128) : lidx_main_v23 (ix2 r h) k = ix2 r k :=
  funext fun a => Fin.ext (by match a with | ⟨0, _⟩ => rfl | ⟨1, _⟩ => rfl)
theorem r23 (r : Fin 8000) (h k : Fin 128) : ridx_main_v23 (ix2 r h) k = ix2 k h :=
  funext fun a => Fin.ext (by match a with | ⟨0, _⟩ => rfl | ⟨1, _⟩ => rfl)
theorem l44 (r : Fin 20000) (h k : Fin 128) : lidx_main_v44 (ix2 r h) k = ix2 r k :=
  funext fun a => Fin.ext (by match a with | ⟨0, _⟩ => rfl | ⟨1, _⟩ => rfl)
theorem r44 (r : Fin 20000) (h k : Fin 128) : ridx_main_v44 (ix2 r h) k = ix2 k h :=
  funext fun a => Fin.ext (by match a with | ⟨0, _⟩ => rfl | ⟨1, _⟩ => rfl)
theorem l48 (r : Fin 20000) (h k : Fin 128) : lidx_main_v48 (ix2 r h) k = ix2 r k :=
  funext fun a => Fin.ext (by match a with | ⟨0, _⟩ => rfl | ⟨1, _⟩ => rfl)
theorem r48 (r : Fin 20000) (h k : Fin 128) : ridx_main_v48 (ix2 r h) k = ix2 k h :=
  funext fun a => Fin.ext (by match a with | ⟨0, _⟩ => rfl | ⟨1, _⟩ => rfl)
theorem l65 (l : Fin 500000) (o : Fin 5) (k : Fin 256) : lidx_main_v65 (ix2 l o) k = ix2 l k :=
  funext fun a => Fin.ext (by match a with | ⟨0, _⟩ => rfl | ⟨1, _⟩ => rfl)
theorem r65 (l : Fin 500000) (o : Fin 5) (k : Fin 256) : ridx_main_v65 (ix2 l o) k = ix2 k o :=
  funext fun a => Fin.ext (by match a with | ⟨0, _⟩ => rfl | ⟨1, _⟩ => rfl)
theorem b21 (r : Fin 8000) (h : Fin 128) : idx_main_v20 (idx_main_v21 (ix2 r h)) = ix1 h :=
  funext fun a => Fin.ext (by match a with | ⟨0, _⟩ => rfl)
theorem b46 (r : Fin 20000) (h : Fin 128) : idx_main_v45 (idx_main_v46 (ix2 r h)) = ix1 h :=
  funext fun a => Fin.ext (by match a with | ⟨0, _⟩ => rfl)
theorem b67 (l : Fin 500000) (o : Fin 5) : idx_main_v66 (idx_main_v67 (ix2 l o)) = ix1 o :=
  funext fun a => Fin.ext (by match a with | ⟨0, _⟩ => rfl)

/-! ## The hidden features -/

/-- The protein nodes' hidden features: stage 24 of the reference. -/
theorem hidP_eq (x0 : TD) (x1 : TP) (x2 : TW) (x3 : TB) (x4 : TW) (x10 x11 : TE) (r : Fin 8000) (h : Fin 128) :
    val_main_v24 (F := Ideal) x0 x1 x2 x3 x4 x10 x11 (ix2 r h)
      = hidE (val_main_v18 (F := Ideal) x0 x10 x11) x1 x2 x4 x3 r h := by
  rw [val_main_v24_apply, val_main_v22_apply, val_main_v19_apply, val_main_v21_apply, val_main_v20_apply,
    val_main_v23_apply]
  simp only [l19, r19, l23, r23, b21]
  rfl

/-- The drug nodes' hidden features: stage 49 of the reference. -/
theorem hidD_eq (x0 : TD) (x1 : TP) (x5 : TW) (x6 : TB) (x7 : TW) (x10 x11 : TE) (r : Fin 20000) (h : Fin 128) :
    val_main_v49 (F := Ideal) x0 x1 x5 x6 x7 x10 x11 (ix2 r h)
      = hidE (val_main_v43 (F := Ideal) x1 x10 x11) x0 x5 x7 x6 r h := by
  rw [val_main_v49_apply, val_main_v47_apply, val_main_v44_apply, val_main_v46_apply, val_main_v45_apply,
    val_main_v48_apply]
  simp only [l44, r44, l48, r48, b46]
  rfl

/-! ## The rows an edge label picks -/

theorem gD_eq : gather_S20000x128_S500000x1_S500000x128_1_0_n_n_0_1_1128
    = rowsDims 20000 128 500000 gather_S20000x128_S500000x1_S500000x128_1_0_n_n_0_1_1128.wf := rfl
theorem gP_eq : gather_S8000x128_S500000x1_S500000x128_1_0_n_n_0_1_1128
    = rowsDims 8000 128 500000 gather_S8000x128_S500000x1_S500000x128_1_0_n_n_0_1_1128.wf := rfl

/-- The gathered drug rows, at label `l`, feature `k`. -/
theorem v56_at (x0 : TD) (x1 : TP) (x5 : TW) (x6 : TB) (x7 : TW) (x10 x11 : TE) (x12 : TL) (l : Fin 500000) (k : Fin 128) :
    val_main_v56 (F := Ideal) x0 x1 x5 x6 x7 x10 x11 x12 (ix2 l k)
      = val_main_v49 (F := Ideal) x0 x1 x5 x6 x7 x10 x11 (ix2 (rowOf 20000 (by omega) (val_main_v55 (F := Ideal) x12) l) k) := by
  unfold val_main_v56
  rw [gD_eq]
  exact gather_rows_apply (by omega) _ _ _ l k

/-- The gathered protein rows, at label `l`, feature `k`. -/
theorem v63_at (x0 : TD) (x1 : TP) (x2 : TW) (x3 : TB) (x4 : TW) (x10 x11 : TE) (x13 : TL) (l : Fin 500000) (k : Fin 128) :
    val_main_v63 (F := Ideal) x0 x1 x2 x3 x4 x10 x11 x13 (ix2 l k)
      = val_main_v24 (F := Ideal) x0 x1 x2 x3 x4 x10 x11 (ix2 (rowOf 8000 (by omega) (val_main_v62 (F := Ideal) x13) l) k) := by
  unfold val_main_v63
  rw [gP_eq]
  exact gather_rows_apply (by omega) _ _ _ l k

/-! ## The two rows side by side -/

/-- Entries 0 … 127 of the joined row are the drug row. -/
theorem v64_left (x0 : TD) (x1 : TP) (x2 : TW) (x3 : TB) (x4 x5 : TW) (x6 : TB) (x7 : TW) (x10 x11 : TE) (x12 x13 : TL)
    (l : Fin 500000) (k : Fin 128) :
    val_main_v64 (F := Ideal) x0 x1 x2 x3 x4 x5 x6 x7 x10 x11 x12 x13 (ix2 l (⟨k.val, by omega⟩ : Fin 256))
      = val_main_v56 (F := Ideal) x0 x1 x5 x6 x7 x10 x11 x12 (ix2 l k) := by
  unfold val_main_v64
  refine concatenate_pair_apply_left (t := S500000x256) (s₁ := S500000x128) (s₂ := S500000x128) (1 : Fin 2) _ _
    Gen.concatenates_S500000x128_S500000x128_S500000x256_d1 (ix2 l (⟨k.val, by omega⟩ : Fin 256)) rfl (ix2 l k) (fun b => ?_)
  match b with
  | ⟨0, _⟩ => rfl
  | ⟨1, _⟩ => rfl

/-- Entries 128 … 255 of the joined row are the protein row. -/
theorem v64_right (x0 : TD) (x1 : TP) (x2 : TW) (x3 : TB) (x4 x5 : TW) (x6 : TB) (x7 : TW) (x10 x11 : TE) (x12 x13 : TL)
    (l : Fin 500000) (k : Fin 128) :
    val_main_v64 (F := Ideal) x0 x1 x2 x3 x4 x5 x6 x7 x10 x11 x12 x13 (ix2 l (⟨128 + k.val, by omega⟩ : Fin 256))
      = val_main_v63 (F := Ideal) x0 x1 x2 x3 x4 x10 x11 x13 (ix2 l k) := by
  unfold val_main_v64
  refine concatenate_pair_apply_right (t := S500000x256) (s₁ := S500000x128) (s₂ := S500000x128) (1 : Fin 2) _ _
    Gen.concatenates_S500000x128_S500000x128_S500000x256_d1 (ix2 l (⟨128 + k.val, by omega⟩ : Fin 256)) rfl rfl (ix2 l k)
    (fun b hb => ?_) ?_
  · match b with
    | ⟨0, _⟩ => rfl
    | ⟨1, _⟩ => exact absurd rfl hb
  · show k.val + 128 = 128 + k.val
    omega

/-! ## The result -/

/-- THE REFERENCE'S RESULT at label `l`, class `o` is the specification's. -/
theorem ref_out (x0 : TD) (x1 : TP) (x2 : TW) (x3 : TB) (x4 x5 : TW) (x6 : TB) (x7 : TW) (x8 : TC) (x9 : TO)
    (x10 x11 : TE) (x12 x13 : TL) (l : Fin 500000) (o : Fin 5) :
    val_main_v68 (F := Ideal) x0 x1 x2 x3 x4 x5 x6 x7 x8 x9 x10 x11 x12 x13 (ix2 l o)
      = outE (hid (val_main_v43 (F := Ideal) x1 x10 x11) x0 x5 x7 x6) (hid (val_main_v18 (F := Ideal) x0 x10 x11) x1 x2 x4 x3)
          x8 x9 (rowOf 20000 (by omega) (val_main_v55 (F := Ideal) x12)) (rowOf 8000 (by omega) (val_main_v62 (F := Ideal) x13)) l o := by
  rw [val_main_v68_apply, val_main_v65_apply, val_main_v67_apply, val_main_v66_apply]
  simp only [l65, r65, b67]
  unfold outE
  rw [← cat_entry (hid (val_main_v43 (F := Ideal) x1 x10 x11) x0 x5 x7 x6) (hid (val_main_v18 (F := Ideal) x0 x10 x11) x1 x2 x4 x3) x8
    (rowOf 20000 (by omega) (val_main_v55 (F := Ideal) x12) l) (rowOf 8000 (by omega) (val_main_v62 (F := Ideal) x13) l) o
    (fun k => val_main_v64 (F := Ideal) x0 x1 x2 x3 x4 x5 x6 x7 x10 x11 x12 x13 (ix2 l k))
    (fun k => by rw [v64_left, v56_at, hidD_eq, hid_ix2])
    (fun k => by rw [v64_right, v63_at, hidP_eq, hid_ix2])]
  rfl

end Cert.ReferenceIdeal.SageRef

end
-- ==== Proof.SageKernel.lean ====
/-
  The kernel program's result as the specification.

  After the second region the host picks, for every edge label, the drug node's projected row and the protein
  node's projected row (gathers of whole rows), adds them, and adds the class bias.  Each projected row is the
  node's hidden row times one half of the classifier matrix: the first region is handed rows 128 … 255 of it and
  the protein nodes, the second rows 0 … 127 and the drug nodes; the bias reaches each region reshaped to one row.
  The aggregated features the regions read are computed by the same host operations, on the same arguments, as
  the reference's, so they are named by the reference's stages and never opened.
-/
import proofs.«112705_j33303176413369_1_alg».proof.Proof.SageRun
import proofs.«112705_j33303176413369_1_alg».proof.Proof.SageBlocks
import proofs.«112705_j33303176413369_1_alg».proof.Proof.SageRef
import Idealize.ShloMosaic.Lib.StableHlo.Run
import Idealize.ShloMosaic.Lib.ValueLayout

set_option maxRecDepth 16384

noncomputable section

open scoped BigOperators

namespace Cert.KernelIdeal.SageKernel

open Cert.KernelIdeal Cert.KernelIdeal.Gen
open Idealize.ShloMosaic Idealize.ShloMosaic.TcCoe Idealize.ShloMosaic.ValueIdx MatProd Sage GatherRows
open Idealize.SL.Sem Idealize.ShloMosaic.StableHlo
open Cert.ReferenceIdeal.SageRef (TD TP TW TB TE TL TC TO)

/-! ## The host operations after the second region -/

/-- What the host computes from the two regions' output arrays: rows picked, added, the class bias added. -/
def tail (PD : Arr2 20000 5) (PP : Arr2 8000 5) (x12 x13 : TL) (x9 : TO) : Arr2 500000 5 :=
  addf (F := Ideal) (φ := .f32) (addf (F := Ideal) (φ := .f32)
      (Host.gather gather_S20000x5_S500000x1_S500000x5_1_0_n_n_0_1_15 PD (Cert.ReferenceIdeal.Read.val_main_v55 (F := Ideal) x12))
      (Host.gather gather_S8000x5_S500000x1_S500000x5_1_0_n_n_0_1_15 PP (Cert.ReferenceIdeal.Read.val_main_v62 (F := Ideal) x13)))
    (Cert.ReferenceIdeal.Read.val_main_v67 (F := Ideal) x9)

theorem gD_eq : gather_S20000x5_S500000x1_S500000x5_1_0_n_n_0_1_15
    = rowsDims 20000 5 500000 gather_S20000x5_S500000x1_S500000x5_1_0_n_n_0_1_15.wf := rfl
theorem gP_eq : gather_S8000x5_S500000x1_S500000x5_1_0_n_n_0_1_15
    = rowsDims 8000 5 500000 gather_S8000x5_S500000x1_S500000x5_1_0_n_n_0_1_15.wf := rfl

/-- The tail at label `l`, class `o`. -/
theorem tail_at (PD : Arr2 20000 5) (PP : Arr2 8000 5) (x12 x13 : TL) (x9 : TO) (l : Fin 500000) (o : Fin 5) :
    tail PD PP x12 x13 x9 (ix2 l o)
      = (PD (ix2 (rowOf 20000 (by omega) (Cert.ReferenceIdeal.Read.val_main_v55 (F := Ideal) x12) l) o)
          + PP (ix2 (rowOf 8000 (by omega) (Cert.ReferenceIdeal.Read.val_main_v62 (F := Ideal) x13) l) o)) + x9 (ix1 o) := by
  have e1 : Host.gather gather_S20000x5_S500000x1_S500000x5_1_0_n_n_0_1_15 PD (Cert.ReferenceIdeal.Read.val_main_v55 (F := Ideal) x12) (ix2 l o)
      = PD (ix2 (rowOf 20000 (by omega) (Cert.ReferenceIdeal.Read.val_main_v55 (F := Ideal) x12) l) o) := by
    rw [gD_eq]
    exact gather_rows_apply (by omega) _ _ _ l o
  have e2 : Host.gather gather_S8000x5_S500000x1_S500000x5_1_0_n_n_0_1_15 PP (Cert.ReferenceIdeal.Read.val_main_v62 (F := Ideal) x13) (ix2 l o)
      = PP (ix2 (rowOf 8000 (by omega) (Cert.ReferenceIdeal.Read.val_main_v62 (F := Ideal) x13) l) o) := by
    rw [gP_eq]
    exact gather_rows_apply (by omega) _ _ _ l o
  unfold tail
  show (Host.gather gather_S20000x5_S500000x1_S500000x5_1_0_n_n_0_1_15 PD _ (ix2 l o)
      + Host.gather gather_S8000x5_S500000x1_S500000x5_1_0_n_n_0_1_15 PP _ (ix2 l o))
      + Cert.ReferenceIdeal.Read.val_main_v67 (F := Ideal) x9 (ix2 l o) = _
  rw [e1, e2, Cert.ReferenceIdeal.Read.val_main_v67_apply,
    Cert.ReferenceIdeal.Read.val_main_v66_apply, Cert.ReferenceIdeal.SageRef.b67]

/-- A projected row with the bias row a reshaped bias vector and the classifier half a slice of the whole
    matrix is the hidden row against that half. -/
theorem projE_hid {n : ℕ} (mean x : Arr2 n 128) (Wl Wr : Arr2 128 128) (bl : Arr1 128) (W : Arr2 256 5)
    (brow : Arr2 1 128) (Wh : Arr2 128 5) (o : ℕ) (ho : o + 128 ≤ 256)
    (hb : ∀ h : Fin 128, brow (ix2 (0 : Fin 1) h) = bl (ix1 h))
    (hw : ∀ (h : Fin 128) (q : Fin 5), Wh (ix2 h q) = W (ix2 ⟨o + h.val, by omega⟩ q)) (r : Fin n) (q : Fin 5) :
    projE mean x Wl Wr brow Wh r q = entry (hid mean x Wl Wr bl) (half o ho W) r q := by
  unfold projE entry
  refine Finset.sum_congr rfl fun h _ => ?_
  rw [hid_ix2, half_ix2, hb h, hw h q]
  rfl

variable (m : (ℓ : Loc nD τ sig) → Buf (Elt Ideal) ℓ) (ρ : Dev nD → PrngReg)

/-! ## The buffers at the boundaries, read back to the launch memory -/

set_option maxHeartbeats 4000000 in
/-- The result buffer at the last boundary is the tail of the two regions' output arrays. -/
theorem W5_v61 (c : Dev nD) : W5 m ρ c (Proc.devRef .tc main_v61)
    = tail (W4 m ρ c (Proc.devRef .tc main_v43)) (W4 m ρ c (Proc.devRef .tc main_v41))
        (W4 m ρ c (Proc.devRef .tc main_arg12)) (W4 m ρ c (Proc.devRef .tc main_arg13)) (W4 m ρ c (Proc.devRef .tc main_arg9)) := by
  show StableHlo.after hostOps2 (W4 m ρ c) (Proc.devRef .tc main_v61) = _
  after_results_simp <;> rfl

/-- No host operation before the first region writes an argument. -/
theorem W1_arg (c : Dev nD) (b : Ref sig .tc)
    (hb : ∀ op ∈ (hostOps0 : List (HloOp τ sig (Elt Ideal))), Proc.devRef .tc b ∉ op.writes) :
    W1 m ρ c (Proc.devRef .tc b) = m ((c : Thread nD τ).loc b) :=
  StableHlo.after_of_forall_not_mem (b := Proc.devRef .tc b) _ _ hb

theorem W1_arg0 (c : Dev nD) : W1 m ρ c (Proc.devRef .tc main_arg0) = m ((c : Thread nD τ).loc main_arg0) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg1 (c : Dev nD) : W1 m ρ c (Proc.devRef .tc main_arg1) = m ((c : Thread nD τ).loc main_arg1) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg2 (c : Dev nD) : W1 m ρ c (Proc.devRef .tc main_arg2) = m ((c : Thread nD τ).loc main_arg2) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg4 (c : Dev nD) : W1 m ρ c (Proc.devRef .tc main_arg4) = m ((c : Thread nD τ).loc main_arg4) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg5 (c : Dev nD) : W1 m ρ c (Proc.devRef .tc main_arg5) = m ((c : Thread nD τ).loc main_arg5) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg6 (c : Dev nD) : W1 m ρ c (Proc.devRef .tc main_arg6) = m ((c : Thread nD τ).loc main_arg6) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg7 (c : Dev nD) : W1 m ρ c (Proc.devRef .tc main_arg7) = m ((c : Thread nD τ).loc main_arg7) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg9 (c : Dev nD) : W1 m ρ c (Proc.devRef .tc main_arg9) = m ((c : Thread nD τ).loc main_arg9) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg12 (c : Dev nD) : W1 m ρ c (Proc.devRef .tc main_arg12) = m ((c : Thread nD τ).loc main_arg12) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg13 (c : Dev nD) : W1 m ρ c (Proc.devRef .tc main_arg13) = m ((c : Thread nD τ).loc main_arg13) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The aggregated protein features the first region reads are the reference's stage 18 of the arguments. -/
theorem W1_v18 (c : Dev nD) : W1 m ρ c (Proc.devRef .tc main_v18)
    = Cert.ReferenceIdeal.Read.val_main_v18 (F := Ideal) (m ((c : Thread nD τ).loc main_arg0)) (m ((c : Thread nD τ).loc main_arg10)) (m ((c : Thread nD τ).loc main_arg11)) := by
  show StableHlo.after hostOps0 (W0 m ρ c) (Proc.devRef .tc main_v18) = _
  after_results_simp <;> rfl
/-- The aggregated drug features the second region reads are the reference's stage 43 of the arguments. -/
theorem W1_v37 (c : Dev nD) : W1 m ρ c (Proc.devRef .tc main_v37)
    = Cert.ReferenceIdeal.Read.val_main_v43 (F := Ideal) (m ((c : Thread nD τ).loc main_arg1)) (m ((c : Thread nD τ).loc main_arg10)) (m ((c : Thread nD τ).loc main_arg11)) := by
  show StableHlo.after hostOps0 (W0 m ρ c) (Proc.devRef .tc main_v37) = _
  after_results_simp <;> rfl
/-- Rows 0 … 127 of the classifier matrix. -/
theorem W1_v38 (c : Dev nD) : W1 m ρ c (Proc.devRef .tc main_v38)
    = extractStridedSlice S128x5 ![0, 0] (m ((c : Thread nD τ).loc main_arg8)) slices_S256x5_S128x5_0_0 := by
  show StableHlo.after hostOps0 (W0 m ρ c) (Proc.devRef .tc main_v38) = _
  after_results_simp <;> rfl
/-- Rows 128 … 255 of the classifier matrix. -/
theorem W1_v39 (c : Dev nD) : W1 m ρ c (Proc.devRef .tc main_v39)
    = extractStridedSlice S128x5 ![128, 0] (m ((c : Thread nD τ).loc main_arg8)) slices_S256x5_S128x5_128_0 := by
  show StableHlo.after hostOps0 (W0 m ρ c) (Proc.devRef .tc main_v39) = _
  after_results_simp <;> rfl
/-- The first bias as one row. -/
theorem W1_v40 (c : Dev nD) : W1 m ρ c (Proc.devRef .tc main_v40)
    = shapeCast S1x128 (m ((c : Thread nD τ).loc main_arg3)) shapeCasts_S128_S1x128 := by
  show StableHlo.after hostOps0 (W0 m ρ c) (Proc.devRef .tc main_v40) = _
  after_results_simp <;> rfl

/-- The first region writes none of these buffers. -/
theorem W2_ne (c : Dev nD) (b : Ref sig .tc) (hb : ∀ w, Pipeline.arrRef spec0 w ≠ b) :
    W2 m ρ c (Proc.devRef .tc b) = W1 m ρ c (Proc.devRef .tc b) := W2_of_ne m ρ c b hb

/-- The one host operation between the regions writes only the second bias row. -/
theorem W3_ne (c : Dev nD) (b : Ref sig .tc) (hb : b ≠ main_v42) :
    W3 m ρ c (Proc.devRef .tc b) = W2 m ρ c (Proc.devRef .tc b) := by
  show StableHlo.after hostOps1 (W2 m ρ c) (Proc.devRef .tc b) = _
  simp only [hostOps1, after_cons, after_nil]
  rw [reshape_result_ne] <;> first | exact hb | rfl
/-- The second bias as one row. -/
theorem W3_v42 (c : Dev nD) : W3 m ρ c (Proc.devRef .tc main_v42)
    = shapeCast S1x128 (W2 m ρ c (Proc.devRef .tc main_arg6)) shapeCasts_S128_S1x128 := by
  show StableHlo.after hostOps1 (W2 m ρ c) (Proc.devRef .tc main_v42) = _
  after_results <;> rfl

/-! ## The regions' output arrays as functions of the launch memory -/

/-- The first region's output array, over the buffers it finds. -/
theorem W2_v41 (c : Dev nD) : W2 m ρ c (Proc.devRef .tc main_v41)
    = proj (W1 m ρ c (Proc.devRef .tc main_v18) : Arr2 8000 128) (W1 m ρ c (Proc.devRef .tc main_arg1) : Arr2 8000 128)
        (W1 m ρ c (Proc.devRef .tc main_arg2) : Arr2 128 128) (W1 m ρ c (Proc.devRef .tc main_arg4) : Arr2 128 128)
        (W1 m ρ c (Proc.devRef .tc main_v40) : Arr2 1 128) (W1 m ρ c (Proc.devRef .tc main_v39) : Arr2 128 5) :=
  (W2_arr m ρ c 6).trans (SageBlocks.final0 (V1 m ρ) c)

/-- The second region's output array, over the buffers it finds. -/
theorem W4_v43 (c : Dev nD) : W4 m ρ c (Proc.devRef .tc main_v43)
    = proj (W3 m ρ c (Proc.devRef .tc main_v37) : Arr2 20000 128) (W3 m ρ c (Proc.devRef .tc main_arg0) : Arr2 20000 128)
        (W3 m ρ c (Proc.devRef .tc main_arg5) : Arr2 128 128) (W3 m ρ c (Proc.devRef .tc main_arg7) : Arr2 128 128)
        (W3 m ρ c (Proc.devRef .tc main_v42) : Arr2 1 128) (W3 m ρ c (Proc.devRef .tc main_v38) : Arr2 128 5) :=
  (W4_arr m ρ c 6).trans (SageBlocks.final1 (V3 m ρ) c)

/-- The protein nodes' projected rows, of the arguments. -/
theorem W4_v41' (c : Dev nD) : W4 m ρ c (Proc.devRef .tc main_v41)
    = proj (Cert.ReferenceIdeal.Read.val_main_v18 (F := Ideal) (m ((c : Thread nD τ).loc main_arg0)) (m ((c : Thread nD τ).loc main_arg10)) (m ((c : Thread nD τ).loc main_arg11)) : Arr2 8000 128)
        ((m ((c : Thread nD τ).loc main_arg1)) : Arr2 8000 128) ((m ((c : Thread nD τ).loc main_arg2)) : Arr2 128 128) ((m ((c : Thread nD τ).loc main_arg4)) : Arr2 128 128)
        (shapeCast S1x128 (m ((c : Thread nD τ).loc main_arg3)) shapeCasts_S128_S1x128 : Arr2 1 128)
        (extractStridedSlice S128x5 ![128, 0] (m ((c : Thread nD τ).loc main_arg8)) slices_S256x5_S128x5_128_0 : Arr2 128 5) := by
  rw [W4_of_ne m ρ c main_v41 (by decide), W3_ne m ρ c main_v41 (by decide), W2_v41,
    W1_v18, W1_arg1, W1_arg2, W1_arg4, W1_v40, W1_v39]

/-- The drug nodes' projected rows, of the arguments. -/
theorem W4_v43' (c : Dev nD) : W4 m ρ c (Proc.devRef .tc main_v43)
    = proj (Cert.ReferenceIdeal.Read.val_main_v43 (F := Ideal) (m ((c : Thread nD τ).loc main_arg1)) (m ((c : Thread nD τ).loc main_arg10)) (m ((c : Thread nD τ).loc main_arg11)) : Arr2 20000 128)
        ((m ((c : Thread nD τ).loc main_arg0)) : Arr2 20000 128) ((m ((c : Thread nD τ).loc main_arg5)) : Arr2 128 128) ((m ((c : Thread nD τ).loc main_arg7)) : Arr2 128 128)
        (shapeCast S1x128 (m ((c : Thread nD τ).loc main_arg6)) shapeCasts_S128_S1x128 : Arr2 1 128)
        (extractStridedSlice S128x5 ![0, 0] (m ((c : Thread nD τ).loc main_arg8)) slices_S256x5_S128x5_0_0 : Arr2 128 5) := by
  rw [W4_v43, W3_ne m ρ c main_v37 (by decide), W2_ne m ρ c main_v37 (by decide), W1_v37,
    W3_ne m ρ c main_arg0 (by decide), W2_ne m ρ c main_arg0 (by decide), W1_arg0,
    W3_ne m ρ c main_arg5 (by decide), W2_ne m ρ c main_arg5 (by decide), W1_arg5,
    W3_ne m ρ c main_arg7 (by decide), W2_ne m ρ c main_arg7 (by decide), W1_arg7,
    W3_v42, W2_ne m ρ c main_arg6 (by decide), W1_arg6,
    W3_ne m ρ c main_v38 (by decide), W2_ne m ρ c main_v38 (by decide), W1_v38]

theorem W4_arg12 (c : Dev nD) : W4 m ρ c (Proc.devRef .tc main_arg12) = (m ((c : Thread nD τ).loc main_arg12)) := by
  rw [W4_of_ne m ρ c main_arg12 (by decide), W3_ne m ρ c main_arg12 (by decide), W2_ne m ρ c main_arg12 (by decide), W1_arg12]
theorem W4_arg13 (c : Dev nD) : W4 m ρ c (Proc.devRef .tc main_arg13) = (m ((c : Thread nD τ).loc main_arg13)) := by
  rw [W4_of_ne m ρ c main_arg13 (by decide), W3_ne m ρ c main_arg13 (by decide), W2_ne m ρ c main_arg13 (by decide), W1_arg13]
theorem W4_arg9 (c : Dev nD) : W4 m ρ c (Proc.devRef .tc main_arg9) = (m ((c : Thread nD τ).loc main_arg9)) := by
  rw [W4_of_ne m ρ c main_arg9 (by decide), W3_ne m ρ c main_arg9 (by decide), W2_ne m ρ c main_arg9 (by decide), W1_arg9]

/-! ## The result -/

/-- THE KERNEL PROGRAM'S RESULT, of the launch memory: the specification. -/
theorem result (c : Dev nD) : (W5 m ρ c (Proc.devRef .tc main_v61) : Arr2 500000 5)
    = out (hid (Cert.ReferenceIdeal.Read.val_main_v43 (F := Ideal) (m ((c : Thread nD τ).loc main_arg1)) (m ((c : Thread nD τ).loc main_arg10)) (m ((c : Thread nD τ).loc main_arg11))) (m ((c : Thread nD τ).loc main_arg0)) (m ((c : Thread nD τ).loc main_arg5)) (m ((c : Thread nD τ).loc main_arg7)) (m ((c : Thread nD τ).loc main_arg6)))
        (hid (Cert.ReferenceIdeal.Read.val_main_v18 (F := Ideal) (m ((c : Thread nD τ).loc main_arg0)) (m ((c : Thread nD τ).loc main_arg10)) (m ((c : Thread nD τ).loc main_arg11))) (m ((c : Thread nD τ).loc main_arg1)) (m ((c : Thread nD τ).loc main_arg2)) (m ((c : Thread nD τ).loc main_arg4)) (m ((c : Thread nD τ).loc main_arg3)))
        (m ((c : Thread nD τ).loc main_arg8)) (m ((c : Thread nD τ).loc main_arg9))
        (rowOf 20000 (by omega) (Cert.ReferenceIdeal.Read.val_main_v55 (F := Ideal) (m ((c : Thread nD τ).loc main_arg12))))
        (rowOf 8000 (by omega) (Cert.ReferenceIdeal.Read.val_main_v62 (F := Ideal) (m ((c : Thread nD τ).loc main_arg13)))) := by
  rw [W5_v61, W4_v43', W4_v41', W4_arg12, W4_arg13, W4_arg9]
  funext i
  obtain ⟨l, o, rfl⟩ : ∃ (l : Fin 500000) (o : Fin 5), i = ix2 l o := ⟨i 0, i 1, eq_ix2 i⟩
  rw [tail_at, out_ix2, proj_ix2, proj_ix2]
  unfold outE
  rw [projE_hid _ _ _ _ (m ((c : Thread nD τ).loc main_arg6)) (m ((c : Thread nD τ).loc main_arg8)) _ _ 0 (by omega)
      (fun h => shapeCast_a_1a_apply _ shapeCasts_S128_S1x128 (0 : Fin 1) h)
      (fun h q => slice2_axis0_apply 0 _ slices_S256x5_S128x5_0_0 h q ⟨0 + h.val, by omega⟩ rfl),
    projE_hid _ _ _ _ (m ((c : Thread nD τ).loc main_arg3)) (m ((c : Thread nD τ).loc main_arg8)) _ _ 128 (by omega)
      (fun h => shapeCast_a_1a_apply _ shapeCasts_S128_S1x128 (0 : Fin 1) h)
      (fun h q => slice2_axis0_apply 128 _ slices_S256x5_S128x5_128_0 h q ⟨128 + h.val, by omega⟩ rfl)]

end Cert.KernelIdeal.SageKernel

end
-- ==== Proof.lean ====
/-
  A two-layer message-passing network on a graph of drug and protein nodes, followed by a linear classifier on
  pairs of nodes, computed two ways.

  Both programs aggregate, for every node, the mean of its neighbours' features (a gather along the edges, a
  scatter-add into the nodes, a division by the clamped neighbour count) and form each node's hidden features
  hid = (mean · Wl + bl) + x · Wr.  The reference then picks, for every edge label, the drug node's and the protein
  node's hidden rows, joins them into one row of 256 entries, multiplies by the 256 × 5 classifier matrix W and
  adds the class bias.  The kernel program instead multiplies every node's hidden row by its own half of W inside
  two kernel regions (protein nodes against rows 128 … 255, drug nodes against rows 0 … 127), walking row blocks of
  4000 nodes, and afterwards picks the projected rows, adds them, and adds the bias.

  On the extended reals the two agree entry by entry: picking a row commutes with an operation that acts on each
  row by itself, and a sum over 256 consecutive indices is the sum over the first 128 plus the sum over the last
  128.  Only commutativity and associativity of addition are used, so the inputs' finiteness is never needed.
  The aggregation is the same chain of host operations in both programs and is never opened.

  Modules: SageSpec (the result as one function of the arguments, and the splitting law), LibMatProd and
  LibGatherRows (a matrix product entry by entry; a gather of whole rows at coordinates), SagePayload (what one grid
  point stores), SageBlocks (from blocks to each region's output array), SageRun (the run with every buffer
  named), SageKernel (the kernel program's result is the specification), SageRef (so is the reference's).
-/
import proofs.«112705_j33303176413369_1_alg».proof.Defs
import proofs.«112705_j33303176413369_1_alg».proof.Proof.Gen.Kernel
import proofs.«112705_j33303176413369_1_alg».proof.Proof.Gen.Kernel.Skeleton
import proofs.«112705_j33303176413369_1_alg».proof.Proof.Gen.Kernel.Launch
import proofs.«112705_j33303176413369_1_alg».proof.Proof.Gen.Kernel.Points
import proofs.«112705_j33303176413369_1_alg».proof.Proof.Gen.Kernel.Frame
import proofs.«112705_j33303176413369_1_alg».proof.Proof.Gen.KernelIdeal
import proofs.«112705_j33303176413369_1_alg».proof.Proof.Gen.KernelIdeal.Skeleton
import proofs.«112705_j33303176413369_1_alg».proof.Proof.Gen.KernelIdeal.Launch
import proofs.«112705_j33303176413369_1_alg».proof.Proof.Gen.KernelIdeal.Points
import proofs.«112705_j33303176413369_1_alg».proof.Proof.Gen.KernelIdeal.Frame
import proofs.«112705_j33303176413369_1_alg».proof.Proof.Gen.ReferenceIdeal
import proofs.«112705_j33303176413369_1_alg».proof.Proof.Gen.Pre_finite_inputs
import proofs.«112705_j33303176413369_1_alg».proof.Proof.Gen.ReferenceIdeal.Run
import proofs.«112705_j33303176413369_1_alg».proof.Proof.Gen.ReferenceIdeal.Read
import proofs.«112705_j33303176413369_1_alg».proof.Proof.SageKernel
import proofs.«112705_j33303176413369_1_alg».proof.Proof.SageRef
import Idealize.ShloMosaic.Adequacy
import Idealize.ShloMosaic.Init

set_option maxRecDepth 16384

noncomputable section

namespace Cert.Proof

open Idealize.ShloMosaic Idealize.ShloMosaic.ValueIdx Idealize.SL.Sem Sage

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's array of the arguments. -/
theorem algebraic : Cert.algebraic_KernelIdeal_ReferenceIdeal := by
  intro m g m' g' _ hagree
  refine ⟨fun c => Cert.KernelIdeal.Gen.W5 m g c (Proc.devRef .tc Cert.KernelIdeal.main_v61),
    Cert.KernelIdeal.SageRun.run_result m g, ?_⟩
  refine (θ_run Cert.ReferenceIdeal.defs _ _).mono (fun _ h c => ⟨(h c).1.trans ?_, (h c).2⟩)
    (Cert.ReferenceIdeal.Value.run (F := Ideal) m' g')
  obtain ⟨a0, a1, a2, a3, a4, a5, a6, a7, a8, a9, a10, a11, a12, a13⟩ := hagree c
  rw [Cert.ReferenceIdeal.Read.val_main_v68_eq, a0, a1, a2, a3, a4, a5, a6, a7, a8, a9, a10, a11, a12, a13]
  refine Eq.trans ?_ (Cert.KernelIdeal.SageKernel.result m g c).symm
  funext i
  obtain ⟨l, o, rfl⟩ : ∃ (l : Fin 500000) (o : Fin 5), i = ix2 l o := ⟨i 0, i 1, eq_ix2 i⟩
  rw [Cert.ReferenceIdeal.SageRef.ref_out, out_ix2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
